-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.sign_bit.Statement Cert.KernelIdeal.S512x512 .f32
  ∧ IdealRules.named_const.Statement Cert.KernelIdeal.κ "inv_K" .f32 0x33000400#32 ((1 / 33550336 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S8192x1 : Shape := ⟨2, ![8192, 1]⟩
abbrev S1x8192 : Shape := ⟨2, ![1, 8192]⟩
abbrev S1x1 : Shape := ⟨2, ![1, 1]⟩
abbrev S512x1 : Shape := ⟨2, ![512, 1]⟩
abbrev S1x512 : Shape := ⟨2, ![1, 512]⟩
abbrev S512x512 : Shape := ⟨2, ![512, 512]⟩
abbrev S512 : Shape := ⟨1, ![512]⟩
abbrev S1 : Shape := ⟨1, ![1]⟩
abbrev S_ : Shape := ⟨0, ![]⟩

abbrev nBuf : Space → Nat
  | .hbm => 8
  | .vmem => 10
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x1, .f32⟩
  | .hbm, ⟨5, _⟩ => ⟨S1x8192, .f32⟩
  | .hbm, ⟨6, _⟩ => ⟨S1x1, .f32⟩
  | .hbm, ⟨7, _⟩ => ⟨S_, .f32⟩
  | .local _ .vmem, ⟨0, _⟩ => ⟨S512x1, .f32⟩
  | .local _ .vmem, ⟨1, _⟩ => ⟨S512x1, .f32⟩
  | .local _ .vmem, ⟨2, _⟩ => ⟨S1x512, .f32⟩
  | .local _ .vmem, ⟨3, _⟩ => ⟨S1x512, .f32⟩
  | .local _ .vmem, ⟨4, _⟩ => ⟨S512x1, .f32⟩
  | .local _ .vmem, ⟨5, _⟩ => ⟨S512x1, .f32⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S1x1, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [BitOps F]

abbrev grid0 : Pipeline.Grid := ⟨2, ![16, 16], ![false, false]⟩

def k0_cond3 (i : grid0.Coords) : BitVec 1 :=
  let arg0 : BitVec 32 := BitVec.ofNat 32 (i 0).val
  let c15_i32 : BitVec 32 := 15#32
  let v8 : BitVec 1 := Scalar.cmpi .eq arg0 c15_i32
  let arg1 : BitVec 32 := BitVec.ofNat 32 (i 1).val
  let c15_i32_3 : BitVec 32 := 15#32
  let v9 : BitVec 1 := Scalar.cmpi .eq arg1 c15_i32_3
  let v10 : BitVec 1 := Scalar.andi v8 v9
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  shapeCasts_S8192_S8192x1 : S8192.ShapeCasts S8192x1
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1.size a ≤ S8192x1.size a
  hwx0_0 : ∀ i : grid0.Coords, EltTy.bits .f32 = 32 ∨ (Rect.block (s := S8192x1) S512x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512.size a ≤ S1x8192.size a
  hwx0_1 : ∀ i : grid0.Coords, EltTy.bits .f32 = 32 ∨ (Rect.block (s := S1x8192) S1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_v0) S512x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192x1, .f32⟩
  | .hbm, ⟨3, _⟩ => ⟨S1x8192, .f32⟩
  | .hbm, ⟨4, _⟩ => ⟨S8192x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S8192x1, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192, .i32⟩
  | .hbm, ⟨30, _⟩ => ⟨S8192x1, .i32⟩
  | .hbm, ⟨31, _⟩ => ⟨S1x8192, .i32⟩
  | .hbm, ⟨32, _⟩ => ⟨S8192x8192, .i32⟩
  | .hbm, ⟨33, _⟩ => ⟨S8192x8192, .i32⟩
  | .hbm, ⟨34, _⟩ => ⟨S8192x8192, .i1⟩
  | .hbm, ⟨35, _⟩ => ⟨S_, .f32⟩
  | .hbm, ⟨36, _⟩ => ⟨S_, .f32⟩
  | .hbm, ⟨37, _⟩ => ⟨S8192x8192, .f32⟩
  | .hbm, ⟨38, _⟩ => ⟨S8192x8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts₀]

class Facts : Prop extends Facts₀ where

variable [Facts]
-- ==== Proof.WordCases.lean ====
/-
  The walk over the 16 × 16 grid of tiles, point by point: which of the body's three guarded steps run where.

  Point t of the grid is tile (t / 16, t % 16), the points taken row by row. The body has three guarded steps:
  the accumulator is cleared at the first point only (tile (0, 0)); a tile's sum is added to it at the points on
  or above the diagonal of tiles (row of tiles ≤ column of tiles); and the accumulator, scaled, is stored into the
  one-element result block at the last point only (tile (15, 15)). Each guard is a word computed from the two
  grid coordinates; here each is decided over the 256 points once, in closed form. The result block is written
  back to its array at the last point only, and at every other point the body leaves it untouched.
-/
import proofs.«173667_j59803124630165_1_alg».proof.Proof.Gen.Kernel.Frame
import proofs.«173667_j59803124630165_1_alg».proof.Proof.Gen.Kernel.Skeleton

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-! ## The three guards -/

/-- The guard of the clearing step: both grid coordinates are zero. -/
abbrev atFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The guard of the adding step: the row of tiles is at most the column of tiles. -/
abbrev onUpper (i : grid0.Coords) : Prop :=
  Scalar.cmpi .ne (Scalar.extui (Scalar.cmpi .sle (BitVec.ofNat 32 (i 0).val) (BitVec.ofNat 32 (i 1).val))) 0#32 = 1#1
/-- The guard of the storing step: both grid coordinates are fifteen. -/
abbrev atLast (i : grid0.Coords) : Prop := k0_cond3 i = 1#1

/-- The clearing step runs at point 0 only. -/
theorem atFirst_iff : ∀ t : Fin cfg0.N, atFirst (grid0.coords t) ↔ t.val = 0 :=
  (by decide +kernel : ∀ t : Fin grid0.N, atFirst (grid0.coords t) ↔ t.val = 0)
/-- The adding step runs at the points whose tile is on or above the diagonal of tiles. -/
theorem onUpper_iff : ∀ t : Fin cfg0.N, onUpper (grid0.coords t) ↔ t.val / 16 ≤ t.val % 16 :=
  (by decide +kernel : ∀ t : Fin grid0.N, onUpper (grid0.coords t) ↔ t.val / 16 ≤ t.val % 16)
/-- The storing step runs at point 255 only. -/
theorem atLast_iff : ∀ t : Fin cfg0.N, atLast (grid0.coords t) ↔ t.val = 255 :=
  (by decide +kernel : ∀ t : Fin grid0.N, atLast (grid0.coords t) ↔ t.val = 255)

/-! ## Where the windows are idle, and where the result block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last point the result block is idle: the body stores nothing into it. -/
theorem idle4 : ∀ t : Fin cfg0.N, ¬atLast (grid0.coords t) → cfg0.idle 4 (grid0.coords t) = true := by decide +kernel
/-- At the last point it is live. -/
theorem live4 : ∀ t : Fin cfg0.N, atLast (grid0.coords t) → cfg0.idle 4 (grid0.coords t) = false := by decide +kernel
/-- Away from the last point the result block is not written back. -/
theorem noFlush4 : ∀ t : Fin cfg0.N, ¬atLast (grid0.coords t) → (cfg0.win 4).flush t = false := by decide +kernel

/-! ## The memrefs the body is called with -/

abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a one-element scratch buffer of the kernel's own, kept from point to point. -/
abbrev accM : Memref sig .tc .vmem S1x1 .f32 := Memref.whole cc0_scratch0
/-- The accumulator as a view: what it holds is stated through it. -/
abbrev accV : View sig .tc .vmem S1x1 .f32 := (accM).view
/-- The result block's one staging buffer as a view. -/
abbrev outV : View sig .tc .vmem S1x1 .f32 := (Memref.whole cc0_stg4_0 : Memref sig .tc .vmem S1x1 .f32).view

/-- What the region hands the body besides the windows: the accumulator at some contents, and the generator
    register at some state. -/
theorem rest_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.Kernel.Walk

end
-- ==== Proof.WordRunSkip.lean ====
/-
  The body at a point strictly below the diagonal of tiles (and neither the first nor the last point): none of
  its three guarded steps runs, so it touches no buffer at all — whatever is held before it is held after it.
-/
import proofs.«173667_j59803124630165_1_alg».proof.Proof.WordCases

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

/-- At a point where no guard holds the body returns at once: any resources pass through it unchanged. -/
theorem runSkip (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : ¬onUpper i) (h3 : ¬atLast i) (P : sProp 𝕄) (E : Set ℕ) (K : PUnit → sProp 𝕄) :
    iprop(P ∗ (P -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]
  iintro ⟨HP, Hk⟩
  sl_exec (disch := first | exact h1 | exact h2 | exact h3)
  sl_step
  iapply Hk
  iexact HP

end Cert.Kernel.Walk

end
-- ==== Proof.WordRunAdd.lean ====
/-
  The body at a point on or above the diagonal of tiles that is neither the first nor the last: only the adding
  step runs. It reads the four input blocks and the accumulator, and stores the accumulator again; the input
  blocks are left as they were.
-/
import proofs.«173667_j59803124630165_1_alg».proof.Proof.WordCases

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The adding step alone: the pieces its store leaves in the accumulator (found by running the body), with the
    proof that from the input blocks at `x0 … x3` and the accumulator at `xs` the body runs to the continuation
    holding the inputs as they were and the accumulator with those pieces written. -/
noncomputable def runAdd (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : ¬atLast i) (x0 : Vec F S512x1 .f32) (x1 : Vec F S1x512 .f32) (x2 : Vec F S512x1 .f32) (x3 : Vec F S1x512 .f32) (xs : Vec F S1x1 .f32) :
    { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Walk

end
-- ==== Proof.WordRunFirst.lean ====
/-
  The body at the first point: the accumulator, which holds anything, is cleared, and then the first tile's sum
  is added to it (tile (0, 0) is on the diagonal of tiles).
-/
import proofs.«173667_j59803124630165_1_alg».proof.Proof.WordCases

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The clearing and the adding steps: the pieces their stores leave in the accumulator (found by running the
    body), with the proof that from the input blocks at `x0 … x3` and the accumulator at any contents the body
    runs to the continuation holding the inputs as they were and the accumulator with those pieces written. -/
noncomputable def runFirst (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : atFirst i) (h2 : onUpper i) (h3 : ¬atLast i) (x0 : Vec F S512x1 .f32) (x1 : Vec F S1x512 .f32) (x2 : Vec F S512x1 .f32) (x3 : Vec F S1x512 .f32) :
    { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.Kernel.Walk

end
-- ==== Proof.WordRunLast.lean ====
/-
  The body at the last point: the last tile's sum is added to the accumulator (tile (15, 15) is on the diagonal
  of tiles), and the accumulator, scaled, is stored into the one-element result block.
-/
import proofs.«173667_j59803124630165_1_alg».proof.Proof.WordCases

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 1000000 in
/-- The adding and the storing steps: the pieces their stores leave in the result block and in the accumulator
    (found by running the body), with the proof that from the input blocks at `x0 … x3`, the accumulator at `xs`
    and the result block at any contents the body runs to the continuation holding the inputs as they were and
    both buffers with their pieces written. -/
noncomputable def runLast (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : atLast i) (x0 : Vec F S512x1 .f32) (x1 : Vec F S1x512 .f32) (x2 : Vec F S512x1 .f32) (x3 : Vec F S1x512 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact HS

end Cert.Kernel.Walk

end
-- ==== Proof.WordFrame.lean ====
/-
  The frame of the program: it runs to the end, faults nowhere and leaves its argument arrays as they were —
  together with what its result array holds at the end, named.

  The body is run once for each of the four kinds of point the walk meets (first point; a later point on or above
  the diagonal of tiles; a point below it; the last point), and what the accumulator holds after each point is
  defined by recursion over the walk from the pieces those runs leave: cleared and added to at the first point,
  added to at every later point on or above the diagonal, untouched below it. The region's invariant carries the
  accumulator at exactly these contents from one point to the next. The one-element result block is stored at the
  last point only — where it is also written back to its array — and is handed back untouched everywhere else.
-/
import proofs.«173667_j59803124630165_1_alg».proof.Proof.WordRunSkip
import proofs.«173667_j59803124630165_1_alg».proof.Proof.WordRunAdd
import proofs.«173667_j59803124630165_1_alg».proof.Proof.WordRunFirst
import proofs.«173667_j59803124630165_1_alg».proof.Proof.WordRunLast

set_option maxRecDepth 16384

noncomputable section

namespace Cert.Kernel.Walk

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## What each kind of point leaves in the accumulator and in the result block -/

section Pieces

variable (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)

/-- The first point's two stores into the accumulator each cover it. -/
theorem coverFirst (h1 : atFirst i) (h2 : onUpper i) (h3 : ¬atLast i) (x0 : Vec F S512x1 .f32) (x1 : Vec F S1x512 .f32) (x2 : Vec F S512x1 .f32) (x3 : Vec F S1x512 .f32) (y : S1x1.Idx) :
    ∃ pc ∈ (runFirst c i arg2 harg2 arg3 harg3 arg4 harg4 arg5 harg5 arg6 harg6 arg7 harg7 h1 h2 h3 x0 x1 x2 x3).1, y ∈ pc.1.set :=
  View.cover_of_tiledL (runFirst c i arg2 harg2 arg3 harg3 arg4 harg4 arg5 harg5 arg6 harg6 arg7 harg7 h1 h2 h3 x0 x1 x2 x3).1 S1x1.size (by sl_kernel_rfl) y
/-- What the first point leaves in the accumulator: its pieces read back. -/
def accFirst (h1 : atFirst i) (h2 : onUpper i) (h3 : ¬atLast i) (x0 : Vec F S512x1 .f32) (x1 : Vec F S1x512 .f32) (x2 : Vec F S512x1 .f32) (x3 : Vec F S1x512 .f32) : Vec F S1x1 .f32 :=
  accV.read (Elt F) (accV.writes (Elt F) accV.junk (runFirst c i arg2 harg2 arg3 harg3 arg4 harg4 arg5 harg5 arg6 harg6 arg7 harg7 h1 h2 h3 x0 x1 x2 x3).1)

/-- An adding point's store into the accumulator covers it. -/
theorem coverAdd (h1 : ¬atFirst i) (h2 : onUpper i) (h3 : ¬atLast i) (x0 : Vec F S512x1 .f32) (x1 : Vec F S1x512 .f32) (x2 : Vec F S512x1 .f32) (x3 : Vec F S1x512 .f32) (xs : Vec F S1x1 .f32) (y : S1x1.Idx) :
    ∃ pc ∈ (runAdd c i arg2 harg2 arg3 harg3 arg4 harg4 arg5 harg5 arg6 harg6 arg7 harg7 h1 h2 h3 x0 x1 x2 x3 xs).1, y ∈ pc.1.set :=
  View.cover_of_tiledL (runAdd c i arg2 harg2 arg3 harg3 arg4 harg4 arg5 harg5 arg6 harg6 arg7 harg7 h1 h2 h3 x0 x1 x2 x3 xs).1 S1x1.size (by sl_kernel_rfl) y
/-- What an adding point leaves in the accumulator, from what it found there (`xs`). -/
def accAdd (h1 : ¬atFirst i) (h2 : onUpper i) (h3 : ¬atLast i) (x0 : Vec F S512x1 .f32) (x1 : Vec F S1x512 .f32) (x2 : Vec F S512x1 .f32) (x3 : Vec F S1x512 .f32) (xs : Vec F S1x1 .f32) : Vec F S1x1 .f32 :=
  accV.read (Elt F) (accV.writes (Elt F) accV.junk (runAdd c i arg2 harg2 arg3 harg3 arg4 harg4 arg5 harg5 arg6 harg6 arg7 harg7 h1 h2 h3 x0 x1 x2 x3 xs).1)

/-- The last point's store into the accumulator covers it. -/
theorem coverLastAcc (h1 : ¬atFirst i) (h2 : onUpper i) (h3 : atLast i) (x0 : Vec F S512x1 .f32) (x1 : Vec F S1x512 .f32) (x2 : Vec F S512x1 .f32) (x3 : Vec F S1x512 .f32) (xs : Vec F S1x1 .f32) (y : S1x1.Idx) :
    ∃ pc ∈ (runLast c i arg2 harg2 arg3 harg3 arg4 harg4 arg5 harg5 arg6 harg6 arg7 harg7 h1 h2 h3 x0 x1 x2 x3 xs).2.1, y ∈ pc.1.set :=
  View.cover_of_tiledL (runLast c i arg2 harg2 arg3 harg3 arg4 harg4 arg5 harg5 arg6 harg6 arg7 harg7 h1 h2 h3 x0 x1 x2 x3 xs).2.1 S1x1.size (by sl_kernel_rfl) y
/-- What the last point leaves in the accumulator, from what it found there. -/
def accLast (h1 : ¬atFirst i) (h2 : onUpper i) (h3 : atLast i) (x0 : Vec F S512x1 .f32) (x1 : Vec F S1x512 .f32) (x2 : Vec F S512x1 .f32) (x3 : Vec F S1x512 .f32) (xs : Vec F S1x1 .f32) : Vec F S1x1 .f32 :=
  accV.read (Elt F) (accV.writes (Elt F) accV.junk (runLast c i arg2 harg2 arg3 harg3 arg4 harg4 arg5 harg5 arg6 harg6 arg7 harg7 h1 h2 h3 x0 x1 x2 x3 xs).2.1)
/-- The last point's store into the result block covers it. -/
theorem coverLastOut (h1 : ¬atFirst i) (h2 : onUpper i) (h3 : atLast i) (x0 : Vec F S512x1 .f32) (x1 : Vec F S1x512 .f32) (x2 : Vec F S512x1 .f32) (x3 : Vec F S1x512 .f32) (xs : Vec F S1x1 .f32) (y : S1x1.Idx) :
    ∃ pc ∈ (runLast c i arg2 harg2 arg3 harg3 arg4 harg4 arg5 harg5 arg6 harg6 arg7 harg7 h1 h2 h3 x0 x1 x2 x3 xs).1, y ∈ pc.1.set :=
  View.cover_of_tiledL (runLast c i arg2 harg2 arg3 harg3 arg4 harg4 arg5 harg5 arg6 harg6 arg7 harg7 h1 h2 h3 x0 x1 x2 x3 xs).1 S1x1.size (by sl_kernel_rfl) y
/-- What the last point leaves in the result block. -/
def outLast (h1 : ¬atFirst i) (h2 : onUpper i) (h3 : atLast i) (x0 : Vec F S512x1 .f32) (x1 : Vec F S1x512 .f32) (x2 : Vec F S512x1 .f32) (x3 : Vec F S1x512 .f32) (xs : Vec F S1x1 .f32) : Vec F S1x1 .f32 :=
  outV.read (Elt F) (outV.writes (Elt F) outV.junk (runLast c i arg2 harg2 arg3 harg3 arg4 harg4 arg5 harg5 arg6 harg6 arg7 harg7 h1 h2 h3 x0 x1 x2 x3 xs).1)

end Pieces

/-! ## The accumulator, point by point -/

/-- What the accumulator holds after the body at position `n` of the walk: at the first point what the clearing and
    adding steps leave; at a later point on or above the diagonal of tiles what the adding step leaves over what
    the point before left; below the diagonal what the point before left. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((atFirst_iff ⟨0, hn⟩).mpr rfl) ((onUpper_iff ⟨0, hn⟩).mpr (by show (0 : ℕ) / 16 ≤ 0 % 16; decide))
      (fun h => absurd ((atLast_iff ⟨0, hn⟩).mp h) (by show ¬ ((0 : ℕ) = 255); decide))
      (iblk m c 0 ⟨0, hn⟩) (iblk m c 1 ⟨0, hn⟩) (iblk m c 2 ⟨0, hn⟩) (iblk m c 3 ⟨0, hn⟩)
  | n + 1, hn =>
    if h2 : (n + 1) / 16 ≤ (n + 1) % 16 then
      if h3 : n + 1 = 255 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => Nat.succ_ne_zero n ((atFirst_iff ⟨n + 1, hn⟩).mp h)) ((onUpper_iff ⟨n + 1, hn⟩).mpr h2) ((atLast_iff ⟨n + 1, hn⟩).mpr h3)
          (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => Nat.succ_ne_zero n ((atFirst_iff ⟨n + 1, hn⟩).mp h)) ((onUpper_iff ⟨n + 1, hn⟩).mpr h2) (fun h => h3 ((atLast_iff ⟨n + 1, hn⟩).mp h))
          (iblk m c 0 ⟨n + 1, hn⟩) (iblk m c 1 ⟨n + 1, hn⟩) (iblk m c 2 ⟨n + 1, hn⟩) (iblk m c 3 ⟨n + 1, hn⟩) (accAt c n (Nat.lt_of_succ_lt hn))
    else accAt c n (Nat.lt_of_succ_lt hn)

/-- At the first point. -/
theorem accAt_first (c : Dev nD) (t : Fin cfg0.N) (h1 : atFirst (grid0.coords t)) (h2 : onUpper (grid0.coords t)) (h3 : ¬atLast (grid0.coords t)) :
    accAt m c t.val t.isLt = accFirst c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) := by
  obtain ⟨n, hn⟩ := t
  cases n with
  | zero => rfl
  | succ n => exact absurd ((atFirst_iff ⟨n + 1, hn⟩).mp h1) (Nat.succ_ne_zero n)

/-- At a later point on or above the diagonal that is not the last. -/
theorem accAt_add (c : Dev nD) (t : Fin cfg0.N) (h1 : ¬atFirst (grid0.coords t)) (h2 : onUpper (grid0.coords t)) (h3 : ¬atLast (grid0.coords t)) :
    accAt m c t.val t.isLt = accAdd c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd ((atFirst_iff ⟨0, hn⟩).mpr rfl) h1
  | succ n =>
    exact (dif_pos ((onUpper_iff ⟨n + 1, hn⟩).mp h2)).trans ((dif_neg (fun h => h3 ((atLast_iff ⟨n + 1, hn⟩).mpr h))).trans rfl)

/-- At the last point. -/
theorem accAt_last (c : Dev nD) (t : Fin cfg0.N) (h1 : ¬atFirst (grid0.coords t)) (h2 : onUpper (grid0.coords t)) (h3 : atLast (grid0.coords t)) :
    accAt m c t.val t.isLt = accLast c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd ((atFirst_iff ⟨0, hn⟩).mpr rfl) h1
  | succ n =>
    exact (dif_pos ((onUpper_iff ⟨n + 1, hn⟩).mp h2)).trans ((dif_pos ((atLast_iff ⟨n + 1, hn⟩).mp h3)).trans rfl)

/-- Below the diagonal of tiles. -/
theorem accAt_skip (c : Dev nD) (t : Fin cfg0.N) (h1 : ¬atFirst (grid0.coords t)) (h2 : ¬onUpper (grid0.coords t)) :
    accAt m c t.val t.isLt = accAt m c (t.val - 1) (Nat.lt_of_le_of_lt (Nat.sub_le _ _) t.isLt) := by
  obtain ⟨n, hn⟩ := t
  cases n with
  | zero => exact absurd ((atFirst_iff ⟨0, hn⟩).mpr rfl) h1
  | succ n => exact (dif_neg (fun h => h2 ((onUpper_iff ⟨n + 1, hn⟩).mpr h))).trans rfl

/-- What the result block's staging buffer holds after the body at the last point (elsewhere the body leaves the
    buffer as it found it, and this value is never consulted). -/
def outAt (c : Dev nD) (t : Fin cfg0.N) : Vec F S1x1 .f32 :=
  if h3 : t.val = 255 then
    outLast c (grid0.coords t) (ms0 t) (hs0 t) (ms1 t) (hs1 t) (ms2 t) (hs2 t) (ms3 t) (hs3 t) (ms4 t) (hs4 t) accM (Memref.isWhole_whole _)
      (fun h => by have := (atFirst_iff t).mp h; omega) ((onUpper_iff t).mpr (by omega)) ((atLast_iff t).mpr h3)
      (iblk m c 0 t) (iblk m c 1 t) (iblk m c 2 t) (iblk m c 3 t) (accAt m c (t.val - 1) (Nat.lt_of_le_of_lt (Nat.sub_le _ _) t.isLt))
  else outV.read (Elt F) outV.junk

theorem outAt_last (c : Dev nD) (t : Fin cfg0.N) (h1 : ¬atFirst (grid0.coords t)) (h2 : onUpper (grid0.coords t)) (h3 : atLast (grid0.coords t)) :
    outAt m c t = outLast c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t)
      (accAt m c (t.val - 1) (Nat.lt_of_le_of_lt (Nat.sub_le _ _) t.isLt)) := by
  unfold outAt; rw [dif_pos ((atLast_iff t).mp h3)]

/-! ## The region's invariant -/

/-- Before position `n`: at the start whatever the region hands the body (the accumulator at anything); afterwards
    the accumulator at what the point before left, and the generator register at some state. -/
def accInv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem accInv_zero (c : Dev nD) (n : ℕ) (h : n ≤ cfg0.N) (hz : n = 0) : accInv m c n h = Pipeline.ΦA spec0 c := by
  subst hz; rfl
theorem accInv_succ (c : Dev nD) (n : ℕ) (hn : n < cfg0.N) :
    accInv m c (n + 1) hn = iprop(iprop(owns (c : Thread nD τ) accM fullShare (accAt m c n hn)) ∗ (∃ r, prngReg c r)) := rfl
theorem accInv_pos (c : Dev nD) (n : ℕ) (h : n ≤ cfg0.N) (hz : n ≠ 0) :
    accInv m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input block in place and the result block at `outAt`;
    the invariant the accumulator's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem accInv_castSucc (c : Dev nD) (t : Fin cfg0.N) :
    (dats m 0 c).Φ t.castSucc = accInv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- An input window is live everywhere, and the body leaves its block in place. -/
theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms of the three guards say which
    kind of point it is, and that kind's run applies; the invariant hands the body the accumulator at what the
    point before left (at anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = accInv m c (t.val + 1) t.isLt from rfl, accInv_succ]
  rw [leaves0, leaves1, leaves2, leaves3]
  have hN : t.val < 256 := lt_of_lt_of_eq t.isLt (show cfg0.N = 256 from N_0)
  by_cases h2 : t.val / 16 ≤ t.val % 16
  · have hu : onUpper (grid0.coords t) := (onUpper_iff t).mpr h2
    by_cases h3 : t.val = 255
    · -- the last point
      have hl : atLast (grid0.coords t) := (atLast_iff t).mpr h3
      have hf : ¬atFirst (grid0.coords t) := fun h => by have := (atFirst_iff t).mp h; omega
      have hz : t.val ≠ 0 := by omega
      rw [show (dats m 0 c).leavesExact 4 t = owns (c : Thread nD τ) (ms4 t) fullShare ((dats m 0 c).after 4 t) from by
        unfold Dat.leavesExact; rw [live4 t hl], after4, outAt_last m c t hf hu hl, accAt_last m c t hf hu hl]
      unfold accLast outLast; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hf hu hl (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _ _)
    · have hl : ¬atLast (grid0.coords t) := fun h => h3 ((atLast_iff t).mp h)
      rw [Dat.leavesExact_idle (dats m 0 c) 4 t (idle4 t hl) (noFlush4 t hl)]
      by_cases hz : t.val = 0
      · -- the first point
        have hf : atFirst (grid0.coords t) := (atFirst_iff t).mpr hz
        rw [accAt_first m c t hf hu hl]
        unfold accFirst; (try dsimp only)
        rw [accInv_castSucc m c t, accInv_zero m c _ _ hz, rest_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ hf hu hl (iblk m c 0 t) (iblk m c 1 t) (iblk m c 2 t) (iblk m c 3 t)).2 Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · -- a later point on or above the diagonal
        have hf : ¬atFirst (grid0.coords t) := fun h => hz ((atFirst_iff t).mp h)
        rw [accAt_add m c t hf hu hl]
        unfold accAdd; (try dsimp only)
        rw [accInv_castSucc m c t, accInv_pos m c _ _ hz]
        iintro ⟨⟨HS, Hg⟩, Ho, ⟨%d0, H0⟩, ⟨%d1, H1⟩, ⟨%d2, H2⟩, ⟨%d3, H3⟩, ⟨%d4, H4⟩⟩
        iapply ((runAdd c (grid0.coords t) _ _ _ _ _ _ _ _ _ _ _ _ hf hu hl (iblk m c 0 t) (iblk m c 1 t) (iblk m c 2 t) (iblk m c 3 t) _).2 Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (coverAdd c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · -- below the diagonal of tiles: the body touches nothing
    have hu : ¬onUpper (grid0.coords t) := fun h => h2 ((onUpper_iff t).mp h)
    have hz : t.val ≠ 0 := fun h => h2 (by rw [h])
    have hf : ¬atFirst (grid0.coords t) := fun h => hz ((atFirst_iff t).mp h)
    have hl : ¬atLast (grid0.coords t) := fun h => h2 (by rw [(atLast_iff t).mp h])
    rw [Dat.leavesExact_idle (dats m 0 c) 4 t (idle4 t hl) (noFlush4 t hl)]
    rw [accAt_skip m c t hf hu]
    rw [accInv_castSucc m c t, accInv_pos m c _ _ hz]
    iintro ⟨⟨HS, Hg⟩, Ho, ⟨%d0, H0⟩, ⟨%d1, H1⟩, ⟨%d2, H2⟩, ⟨%d3, H3⟩, ⟨%d4, H4⟩⟩
    iapply (runSkip c (grid0.coords t) _ _ _ _ _ _ _ _ _ _ _ _ hf hu hl iprop(∃ r, prngReg c r) Set.univ _)
    isplitl [Hg]
    · iexact Hg
    iintro Hg
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After any point the invariant gives back what the launch handed: the accumulator's contents are forgotten. -/
theorem inv_out (c : Dev nD) (t : Fin (cfg0.N + 1)) (ht : t.val ≠ 0) : (dats m 0 c).Φ t ⊢ Pipeline.ΦA spec0 c := by
  rw [show (dats m 0 c).Φ t = accInv m c t.val (Nat.le_of_lt_succ t.isLt) from rfl, accInv_pos m c _ _ ht, rest_eq]
  iintro ⟨HS, Hg⟩
  isplitl [HS]
  · iexists _; iexact HS
  iexact Hg

theorem hout (c : Dev nD) : (dats m 0 c).Φ (Fin.last cfg0.N) ⊢ Pipeline.ΦA spec0 c :=
  inv_out m c _ (by rw [Fin.val_last]; have : cfg0.N = 256 := N_0; omega)

/-! ## The run and the frame -/

set_option backward.isDefEq.respectTransparency.types false in
/-- Every weakly fair execution of the program terminates, and every final state has every array of the pipeline
    at what the proof data say and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Walk

end
-- ==== Proof.IdealCases.lean ====
/-
  The walk over the 16 × 16 grid of tiles, point by point: which of the body's three guarded steps run where.

  Point t of the grid is tile (t / 16, t % 16), the points taken row by row. The body has three guarded steps:
  the accumulator is cleared at the first point only (tile (0, 0)); a tile's sum is added to it at the points on
  or above the diagonal of tiles (row of tiles ≤ column of tiles); and the accumulator, scaled, is stored into the
  one-element result block at the last point only (tile (15, 15)). Each guard is a word computed from the two
  grid coordinates; here each is decided over the 256 points once, in closed form. The result block is written
  back to its array at the last point only, and at every other point the body leaves it untouched.
-/
import proofs.«173667_j59803124630165_1_alg».proof.Proof.Gen.KernelIdeal.Frame
import proofs.«173667_j59803124630165_1_alg».proof.Proof.Gen.KernelIdeal.Skeleton

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three guards -/

/-- The guard of the clearing step: both grid coordinates are zero. -/
abbrev atFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- The guard of the adding step: the row of tiles is at most the column of tiles. -/
abbrev onUpper (i : grid0.Coords) : Prop :=
  Scalar.cmpi .ne (Scalar.extui (Scalar.cmpi .sle (BitVec.ofNat 32 (i 0).val) (BitVec.ofNat 32 (i 1).val))) 0#32 = 1#1
/-- The guard of the storing step: both grid coordinates are fifteen. -/
abbrev atLast (i : grid0.Coords) : Prop := k0_cond3 i = 1#1

/-- The clearing step runs at point 0 only. -/
theorem atFirst_iff : ∀ t : Fin cfg0.N, atFirst (grid0.coords t) ↔ t.val = 0 :=
  (by decide +kernel : ∀ t : Fin grid0.N, atFirst (grid0.coords t) ↔ t.val = 0)
/-- The adding step runs at the points whose tile is on or above the diagonal of tiles. -/
theorem onUpper_iff : ∀ t : Fin cfg0.N, onUpper (grid0.coords t) ↔ t.val / 16 ≤ t.val % 16 :=
  (by decide +kernel : ∀ t : Fin grid0.N, onUpper (grid0.coords t) ↔ t.val / 16 ≤ t.val % 16)
/-- The storing step runs at point 255 only. -/
theorem atLast_iff : ∀ t : Fin cfg0.N, atLast (grid0.coords t) ↔ t.val = 255 :=
  (by decide +kernel : ∀ t : Fin grid0.N, atLast (grid0.coords t) ↔ t.val = 255)

/-! ## Where the windows are idle, and where the result block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- Away from the last point the result block is idle: the body stores nothing into it. -/
theorem idle4 : ∀ t : Fin cfg0.N, ¬atLast (grid0.coords t) → cfg0.idle 4 (grid0.coords t) = true := by decide +kernel
/-- At the last point it is live. -/
theorem live4 : ∀ t : Fin cfg0.N, atLast (grid0.coords t) → cfg0.idle 4 (grid0.coords t) = false := by decide +kernel
/-- Away from the last point the result block is not written back. -/
theorem noFlush4 : ∀ t : Fin cfg0.N, ¬atLast (grid0.coords t) → (cfg0.win 4).flush t = false := by decide +kernel

/-! ## The memrefs the body is called with -/

abbrev ms0 (t : Fin cfg0.N) : Memref sig .tc .vmem S512x1 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S512x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The accumulator: a one-element scratch buffer of the kernel's own, kept from point to point. -/
abbrev accM : Memref sig .tc .vmem S1x1 .f32 := Memref.whole cc0_scratch0
/-- The accumulator as a view: what it holds is stated through it. -/
abbrev accV : View sig .tc .vmem S1x1 .f32 := (accM).view
/-- The result block's one staging buffer as a view. -/
abbrev outV : View sig .tc .vmem S1x1 .f32 := (Memref.whole cc0_stg4_0 : Memref sig .tc .vmem S1x1 .f32).view

/-- What the region hands the body besides the windows: the accumulator at some contents, and the generator
    register at some state. -/
theorem rest_eq (c : Dev nD) :
    (Pipeline.ΦA spec0 c : sProp 𝕄)
      = iprop(iprop((∃ d, owns (c : Thread nD τ) accM fullShare d)) ∗ (∃ r, prngReg c r)) := by
  unfold Pipeline.ΦA; rw [scopedRest0_eq]; simp only [accM, owns_whole]; try rfl

end Cert.KernelIdeal.Walk

end
-- ==== Proof.IdealRunSkip.lean ====
/-
  The body at a point strictly below the diagonal of tiles (and neither the first nor the last point): none of
  its three guarded steps runs, so it touches no buffer at all — whatever is held before it is held after it.
-/
import proofs.«173667_j59803124630165_1_alg».proof.Proof.IdealCases

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- At a point where no guard holds the body returns at once: any resources pass through it unchanged. -/
theorem runSkip (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : ¬onUpper i) (h3 : ¬atLast i) (P : sProp 𝕄) (E : Set ℕ) (K : PUnit → sProp 𝕄) :
    iprop(P ∗ (P -∗ K ⟨⟩))
      ⊢ wp frame (wpE (defs₀ (F := F)) Variants.none c none) E (cc0__kernel i arg2 harg2 arg3 harg3 arg4 harg4 arg5 harg5 arg6 harg6 arg7 harg7) K := by
  simp only [cc0__kernel_eq_skeleton]; unfold cc0__kernel_skel
  simp only [k0_part1_eq_skeleton]
  iintro ⟨HP, Hk⟩
  sl_exec (disch := first | exact h1 | exact h2 | exact h3)
  sl_step
  iapply Hk
  iexact HP

end Cert.KernelIdeal.Walk

end
-- ==== Proof.IdealRunAdd.lean ====
/-
  The body at a point on or above the diagonal of tiles that is neither the first nor the last: only the adding
  step runs. It reads the four input blocks and the accumulator, and stores the accumulator again; the input
  blocks are left as they were.
-/
import proofs.«173667_j59803124630165_1_alg».proof.Proof.IdealCases

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The adding step alone: the pieces its store leaves in the accumulator (found by running the body), with the
    proof that from the input blocks at `x0 … x3` and the accumulator at `xs` the body runs to the continuation
    holding the inputs as they were and the accumulator with those pieces written. -/
noncomputable def runAdd (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : ¬atLast i) (x0 : Vec F S512x1 .f32) (x1 : Vec F S1x512 .f32) (x2 : Vec F S512x1 .f32) (x3 : Vec F S1x512 .f32) (xs : Vec F S1x1 .f32) :
    { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Walk

end
-- ==== Proof.IdealRunFirst.lean ====
/-
  The body at the first point: the accumulator, which holds anything, is cleared, and then the first tile's sum
  is added to it (tile (0, 0) is on the diagonal of tiles).
-/
import proofs.«173667_j59803124630165_1_alg».proof.Proof.IdealCases

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The clearing and the adding steps: the pieces their stores leave in the accumulator (found by running the
    body), with the proof that from the input blocks at `x0 … x3` and the accumulator at any contents the body
    runs to the continuation holding the inputs as they were and the accumulator with those pieces written. -/
noncomputable def runFirst (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : atFirst i) (h2 : onUpper i) (h3 : ¬atLast i) (x0 : Vec F S512x1 .f32) (x1 : Vec F S1x512 .f32) (x2 : Vec F S512x1 .f32) (x3 : Vec F S1x512 .f32) :
    { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%ds, %fs, -, HS⟩, Hk⟩
    obtain rfl := harg2.eq_unread hf0; obtain rfl := harg3.eq_unread hf1; obtain rfl := harg4.eq_unread hf2; obtain rfl := harg5.eq_unread hf3
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS

end Cert.KernelIdeal.Walk

end
-- ==== Proof.IdealRunLast.lean ====
/-
  The body at the last point: the last tile's sum is added to the accumulator (tile (15, 15) is on the diagonal
  of tiles), and the accumulator, scaled, is stored into the one-element result block.
-/
import proofs.«173667_j59803124630165_1_alg».proof.Proof.IdealCases

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The adding and the storing steps: the pieces their stores leave in the result block and in the accumulator
    (found by running the body), with the proof that from the input blocks at `x0 … x3`, the accumulator at `xs`
    and the result block at any contents the body runs to the continuation holding the inputs as they were and
    both buffers with their pieces written. -/
noncomputable def runLast (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)
    (h1 : ¬atFirst i) (h2 : onUpper i) (h3 : atLast i) (x0 : Vec F S512x1 .f32) (x1 : Vec F S1x512 .f32) (x2 : Vec F S512x1 .f32) (x3 : Vec F S1x512 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    simp only [k0_part1_eq_skeleton]
    unfold owns
    iintro ⟨⟨%f0, %hf0, H0⟩, ⟨%f1, %hf1, H1⟩, ⟨%f2, %hf2, H2⟩, ⟨%f3, %hf3, H3⟩, ⟨%d6, %f6, -, H6⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact h1 | exact h2 | exact h3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H6]; · iexists _; iexact H6
    iexists _; iexact HS

end Cert.KernelIdeal.Walk

end
-- ==== Proof.IdealFrame.lean ====
/-
  The frame of the program: it runs to the end, faults nowhere and leaves its argument arrays as they were —
  together with what its result array holds at the end, named.

  The body is run once for each of the four kinds of point the walk meets (first point; a later point on or above
  the diagonal of tiles; a point below it; the last point), and what the accumulator holds after each point is
  defined by recursion over the walk from the pieces those runs leave: cleared and added to at the first point,
  added to at every later point on or above the diagonal, untouched below it. The region's invariant carries the
  accumulator at exactly these contents from one point to the next. The one-element result block is stored at the
  last point only — where it is also written back to its array — and is handed back untouched everywhere else.
-/
import proofs.«173667_j59803124630165_1_alg».proof.Proof.IdealRunSkip
import proofs.«173667_j59803124630165_1_alg».proof.Proof.IdealRunAdd
import proofs.«173667_j59803124630165_1_alg».proof.Proof.IdealRunFirst
import proofs.«173667_j59803124630165_1_alg».proof.Proof.IdealRunLast

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What each kind of point leaves in the accumulator and in the result block -/

section Pieces

variable (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)

/-- The first point's two stores into the accumulator each cover it. -/
theorem coverFirst (h1 : atFirst i) (h2 : onUpper i) (h3 : ¬atLast i) (x0 : Vec F S512x1 .f32) (x1 : Vec F S1x512 .f32) (x2 : Vec F S512x1 .f32) (x3 : Vec F S1x512 .f32) (y : S1x1.Idx) :
    ∃ pc ∈ (runFirst c i arg2 harg2 arg3 harg3 arg4 harg4 arg5 harg5 arg6 harg6 arg7 harg7 h1 h2 h3 x0 x1 x2 x3).1, y ∈ pc.1.set :=
  View.cover_of_tiledL (runFirst c i arg2 harg2 arg3 harg3 arg4 harg4 arg5 harg5 arg6 harg6 arg7 harg7 h1 h2 h3 x0 x1 x2 x3).1 S1x1.size (by sl_kernel_rfl) y
/-- What the first point leaves in the accumulator: its pieces read back. -/
def accFirst (h1 : atFirst i) (h2 : onUpper i) (h3 : ¬atLast i) (x0 : Vec F S512x1 .f32) (x1 : Vec F S1x512 .f32) (x2 : Vec F S512x1 .f32) (x3 : Vec F S1x512 .f32) : Vec F S1x1 .f32 :=
  accV.read (Elt F) (accV.writes (Elt F) accV.junk (runFirst c i arg2 harg2 arg3 harg3 arg4 harg4 arg5 harg5 arg6 harg6 arg7 harg7 h1 h2 h3 x0 x1 x2 x3).1)

/-- An adding point's store into the accumulator covers it. -/
theorem coverAdd (h1 : ¬atFirst i) (h2 : onUpper i) (h3 : ¬atLast i) (x0 : Vec F S512x1 .f32) (x1 : Vec F S1x512 .f32) (x2 : Vec F S512x1 .f32) (x3 : Vec F S1x512 .f32) (xs : Vec F S1x1 .f32) (y : S1x1.Idx) :
    ∃ pc ∈ (runAdd c i arg2 harg2 arg3 harg3 arg4 harg4 arg5 harg5 arg6 harg6 arg7 harg7 h1 h2 h3 x0 x1 x2 x3 xs).1, y ∈ pc.1.set :=
  View.cover_of_tiledL (runAdd c i arg2 harg2 arg3 harg3 arg4 harg4 arg5 harg5 arg6 harg6 arg7 harg7 h1 h2 h3 x0 x1 x2 x3 xs).1 S1x1.size (by sl_kernel_rfl) y
/-- What an adding point leaves in the accumulator, from what it found there (`xs`). -/
def accAdd (h1 : ¬atFirst i) (h2 : onUpper i) (h3 : ¬atLast i) (x0 : Vec F S512x1 .f32) (x1 : Vec F S1x512 .f32) (x2 : Vec F S512x1 .f32) (x3 : Vec F S1x512 .f32) (xs : Vec F S1x1 .f32) : Vec F S1x1 .f32 :=
  accV.read (Elt F) (accV.writes (Elt F) accV.junk (runAdd c i arg2 harg2 arg3 harg3 arg4 harg4 arg5 harg5 arg6 harg6 arg7 harg7 h1 h2 h3 x0 x1 x2 x3 xs).1)

/-- The last point's store into the accumulator covers it. -/
theorem coverLastAcc (h1 : ¬atFirst i) (h2 : onUpper i) (h3 : atLast i) (x0 : Vec F S512x1 .f32) (x1 : Vec F S1x512 .f32) (x2 : Vec F S512x1 .f32) (x3 : Vec F S1x512 .f32) (xs : Vec F S1x1 .f32) (y : S1x1.Idx) :
    ∃ pc ∈ (runLast c i arg2 harg2 arg3 harg3 arg4 harg4 arg5 harg5 arg6 harg6 arg7 harg7 h1 h2 h3 x0 x1 x2 x3 xs).2.1, y ∈ pc.1.set :=
  View.cover_of_tiledL (runLast c i arg2 harg2 arg3 harg3 arg4 harg4 arg5 harg5 arg6 harg6 arg7 harg7 h1 h2 h3 x0 x1 x2 x3 xs).2.1 S1x1.size (by sl_kernel_rfl) y
/-- What the last point leaves in the accumulator, from what it found there. -/
def accLast (h1 : ¬atFirst i) (h2 : onUpper i) (h3 : atLast i) (x0 : Vec F S512x1 .f32) (x1 : Vec F S1x512 .f32) (x2 : Vec F S512x1 .f32) (x3 : Vec F S1x512 .f32) (xs : Vec F S1x1 .f32) : Vec F S1x1 .f32 :=
  accV.read (Elt F) (accV.writes (Elt F) accV.junk (runLast c i arg2 harg2 arg3 harg3 arg4 harg4 arg5 harg5 arg6 harg6 arg7 harg7 h1 h2 h3 x0 x1 x2 x3 xs).2.1)
/-- The last point's store into the result block covers it. -/
theorem coverLastOut (h1 : ¬atFirst i) (h2 : onUpper i) (h3 : atLast i) (x0 : Vec F S512x1 .f32) (x1 : Vec F S1x512 .f32) (x2 : Vec F S512x1 .f32) (x3 : Vec F S1x512 .f32) (xs : Vec F S1x1 .f32) (y : S1x1.Idx) :
    ∃ pc ∈ (runLast c i arg2 harg2 arg3 harg3 arg4 harg4 arg5 harg5 arg6 harg6 arg7 harg7 h1 h2 h3 x0 x1 x2 x3 xs).1, y ∈ pc.1.set :=
  View.cover_of_tiledL (runLast c i arg2 harg2 arg3 harg3 arg4 harg4 arg5 harg5 arg6 harg6 arg7 harg7 h1 h2 h3 x0 x1 x2 x3 xs).1 S1x1.size (by sl_kernel_rfl) y
/-- What the last point leaves in the result block. -/
def outLast (h1 : ¬atFirst i) (h2 : onUpper i) (h3 : atLast i) (x0 : Vec F S512x1 .f32) (x1 : Vec F S1x512 .f32) (x2 : Vec F S512x1 .f32) (x3 : Vec F S1x512 .f32) (xs : Vec F S1x1 .f32) : Vec F S1x1 .f32 :=
  outV.read (Elt F) (outV.writes (Elt F) outV.junk (runLast c i arg2 harg2 arg3 harg3 arg4 harg4 arg5 harg5 arg6 harg6 arg7 harg7 h1 h2 h3 x0 x1 x2 x3 xs).1)

end Pieces

/-! ## The accumulator, point by point -/

/-- What the accumulator holds after the body at position `n` of the walk: at the first point what the clearing and
    adding steps leave; at a later point on or above the diagonal of tiles what the adding step leaves over what
    the point before left; below the diagonal what the point before left. -/
def accAt (c : Dev nD) : (n : ℕ) → n < cfg0.N → Vec F S1x1 .f32
  | 0, hn => accFirst c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _)
      ((atFirst_iff ⟨0, hn⟩).mpr rfl) ((onUpper_iff ⟨0, hn⟩).mpr (by show (0 : ℕ) / 16 ≤ 0 % 16; decide))
      (fun h => absurd ((atLast_iff ⟨0, hn⟩).mp h) (by show ¬ ((0 : ℕ) = 255); decide))
      (iblk m c 0 ⟨0, hn⟩) (iblk m c 1 ⟨0, hn⟩) (iblk m c 2 ⟨0, hn⟩) (iblk m c 3 ⟨0, hn⟩)
  | n + 1, hn =>
    if h2 : (n + 1) / 16 ≤ (n + 1) % 16 then
      if h3 : n + 1 = 255 then
        accLast c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => Nat.succ_ne_zero n ((atFirst_iff ⟨n + 1, hn⟩).mp h)) ((onUpper_iff ⟨n + 1, hn⟩).mpr h2) ((atLast_iff ⟨n + 1, hn⟩).mpr h3)
          (iblk m c 0 ⟨n + 1, hn⟩) (iblk m c 1 ⟨n + 1, hn⟩) (iblk m c 2 ⟨n + 1, hn⟩) (iblk m c 3 ⟨n + 1, hn⟩) (accAt c n (Nat.lt_of_succ_lt hn))
      else
        accAdd c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _)
          (fun h => Nat.succ_ne_zero n ((atFirst_iff ⟨n + 1, hn⟩).mp h)) ((onUpper_iff ⟨n + 1, hn⟩).mpr h2) (fun h => h3 ((atLast_iff ⟨n + 1, hn⟩).mp h))
          (iblk m c 0 ⟨n + 1, hn⟩) (iblk m c 1 ⟨n + 1, hn⟩) (iblk m c 2 ⟨n + 1, hn⟩) (iblk m c 3 ⟨n + 1, hn⟩) (accAt c n (Nat.lt_of_succ_lt hn))
    else accAt c n (Nat.lt_of_succ_lt hn)

/-- At the first point. -/
theorem accAt_first (c : Dev nD) (t : Fin cfg0.N) (h1 : atFirst (grid0.coords t)) (h2 : onUpper (grid0.coords t)) (h3 : ¬atLast (grid0.coords t)) :
    accAt m c t.val t.isLt = accFirst c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t) := by
  obtain ⟨n, hn⟩ := t
  cases n with
  | zero => rfl
  | succ n => exact absurd ((atFirst_iff ⟨n + 1, hn⟩).mp h1) (Nat.succ_ne_zero n)

/-- At a later point on or above the diagonal that is not the last. -/
theorem accAt_add (c : Dev nD) (t : Fin cfg0.N) (h1 : ¬atFirst (grid0.coords t)) (h2 : onUpper (grid0.coords t)) (h3 : ¬atLast (grid0.coords t)) :
    accAt m c t.val t.isLt = accAdd c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd ((atFirst_iff ⟨0, hn⟩).mpr rfl) h1
  | succ n =>
    exact (dif_pos ((onUpper_iff ⟨n + 1, hn⟩).mp h2)).trans ((dif_neg (fun h => h3 ((atLast_iff ⟨n + 1, hn⟩).mpr h))).trans rfl)

/-- At the last point. -/
theorem accAt_last (c : Dev nD) (t : Fin cfg0.N) (h1 : ¬atFirst (grid0.coords t)) (h2 : onUpper (grid0.coords t)) (h3 : atLast (grid0.coords t)) :
    accAt m c t.val t.isLt = accLast c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t)
      (accAt m c (t.val - 1) (Nat.lt_of_le_of_lt (Nat.sub_le _ _) t.isLt)) := by
  obtain ⟨n, hn⟩ := t
  cases n with
  | zero => exact absurd ((atFirst_iff ⟨0, hn⟩).mpr rfl) h1
  | succ n =>
    exact (dif_pos ((onUpper_iff ⟨n + 1, hn⟩).mp h2)).trans ((dif_pos ((atLast_iff ⟨n + 1, hn⟩).mp h3)).trans rfl)

/-- Below the diagonal of tiles. -/
theorem accAt_skip (c : Dev nD) (t : Fin cfg0.N) (h1 : ¬atFirst (grid0.coords t)) (h2 : ¬onUpper (grid0.coords t)) :
    accAt m c t.val t.isLt = accAt m c (t.val - 1) (Nat.lt_of_le_of_lt (Nat.sub_le _ _) t.isLt) := by
  obtain ⟨n, hn⟩ := t
  cases n with
  | zero => exact absurd ((atFirst_iff ⟨0, hn⟩).mpr rfl) h1
  | succ n => exact (dif_neg (fun h => h2 ((onUpper_iff ⟨n + 1, hn⟩).mpr h))).trans rfl

/-- What the result block's staging buffer holds after the body at the last point (elsewhere the body leaves the
    buffer as it found it, and this value is never consulted). -/
def outAt (c : Dev nD) (t : Fin cfg0.N) : Vec F S1x1 .f32 :=
  if h3 : t.val = 255 then
    outLast c (grid0.coords t) (ms0 t) (hs0 t) (ms1 t) (hs1 t) (ms2 t) (hs2 t) (ms3 t) (hs3 t) (ms4 t) (hs4 t) accM (Memref.isWhole_whole _)
      (fun h => by have := (atFirst_iff t).mp h; omega) ((onUpper_iff t).mpr (by omega)) ((atLast_iff t).mpr h3)
      (iblk m c 0 t) (iblk m c 1 t) (iblk m c 2 t) (iblk m c 3 t) (accAt m c (t.val - 1) (Nat.lt_of_le_of_lt (Nat.sub_le _ _) t.isLt))
  else outV.read (Elt F) outV.junk

theorem outAt_last (c : Dev nD) (t : Fin cfg0.N) (h1 : ¬atFirst (grid0.coords t)) (h2 : onUpper (grid0.coords t)) (h3 : atLast (grid0.coords t)) :
    outAt m c t = outLast c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t)
      (accAt m c (t.val - 1) (Nat.lt_of_le_of_lt (Nat.sub_le _ _) t.isLt)) := by
  unfold outAt; rw [dif_pos ((atLast_iff t).mp h3)]

/-! ## The region's invariant -/

/-- Before position `n`: at the start whatever the region hands the body (the accumulator at anything); afterwards
    the accumulator at what the point before left, and the generator register at some state. -/
def accInv (c : Dev nD) : (n : ℕ) → n ≤ cfg0.N → sProp 𝕄
  | 0, _ => Pipeline.ΦA spec0 c
  | n + 1, hn => iprop(iprop(owns (c : Thread nD τ) accM fullShare (accAt m c n hn)) ∗ (∃ r, prngReg c r))

theorem accInv_zero (c : Dev nD) (n : ℕ) (h : n ≤ cfg0.N) (hz : n = 0) : accInv m c n h = Pipeline.ΦA spec0 c := by
  subst hz; rfl
theorem accInv_succ (c : Dev nD) (n : ℕ) (hn : n < cfg0.N) :
    accInv m c (n + 1) hn = iprop(iprop(owns (c : Thread nD τ) accM fullShare (accAt m c n hn)) ∗ (∃ r, prngReg c r)) := rfl
theorem accInv_pos (c : Dev nD) (n : ℕ) (h : n ≤ cfg0.N) (hz : n ≠ 0) :
    accInv m c n h = iprop(iprop(owns (c : Thread nD τ) accM fullShare (accAt m c (n - 1) (by omega))) ∗ (∃ r, prngReg c r)) := by
  cases n with
  | zero => exact absurd rfl hz
  | succ n => rfl

/-! ## The proof data -/

/-- The arrays as the region finds them; after the body each input block in place and the result block at `outAt`;
    the invariant the accumulator's; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := accInv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem accInv_castSucc (c : Dev nD) (t : Fin cfg0.N) :
    (dats m 0 c).Φ t.castSucc = accInv m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-- An input window is live everywhere, and the body leaves its block in place. -/
theorem leaves0 (c : Dev nD) (t : Fin cfg0.N) : (dats m 0 c).leavesExact 0 t = owns (c : Thread nD τ) (ms0 t) fullShare (iblk m c 0 t) := by
  rw [show (dats m 0 c).leavesExact 0 t = owns (c : Thread nD τ) (ms0 t) fullShare ((dats m 0 c).after 0 t) from by
    unfold Dat.leavesExact; rw [live0 t], after0]
theorem leaves1 (c : Dev nD) (t : Fin cfg0.N) : (dats m 0 c).leavesExact 1 t = owns (c : Thread nD τ) (ms1 t) fullShare (iblk m c 1 t) := by
  rw [show (dats m 0 c).leavesExact 1 t = owns (c : Thread nD τ) (ms1 t) fullShare ((dats m 0 c).after 1 t) from by
    unfold Dat.leavesExact; rw [live1 t], after1]
theorem leaves2 (c : Dev nD) (t : Fin cfg0.N) : (dats m 0 c).leavesExact 2 t = owns (c : Thread nD τ) (ms2 t) fullShare (iblk m c 2 t) := by
  rw [show (dats m 0 c).leavesExact 2 t = owns (c : Thread nD τ) (ms2 t) fullShare ((dats m 0 c).after 2 t) from by
    unfold Dat.leavesExact; rw [live2 t], after2]
theorem leaves3 (c : Dev nD) (t : Fin cfg0.N) : (dats m 0 c).leavesExact 3 t = owns (c : Thread nD τ) (ms3 t) fullShare (iblk m c 3 t) := by
  rw [show (dats m 0 c).leavesExact 3 t = owns (c : Thread nD τ) (ms3 t) fullShare ((dats m 0 c).after 3 t) from by
    unfold Dat.leavesExact; rw [live3 t], after3]

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point: the inputs' buffers hold their blocks; the closed forms of the three guards say which
    kind of point it is, and that kind's run applies; the invariant hands the body the accumulator at what the
    point before left (at anything at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = accInv m c (t.val + 1) t.isLt from rfl, accInv_succ]
  rw [leaves0, leaves1, leaves2, leaves3]
  have hN : t.val < 256 := lt_of_lt_of_eq t.isLt (show cfg0.N = 256 from N_0)
  by_cases h2 : t.val / 16 ≤ t.val % 16
  · have hu : onUpper (grid0.coords t) := (onUpper_iff t).mpr h2
    by_cases h3 : t.val = 255
    · -- the last point
      have hl : atLast (grid0.coords t) := (atLast_iff t).mpr h3
      have hf : ¬atFirst (grid0.coords t) := fun h => by have := (atFirst_iff t).mp h; omega
      have hz : t.val ≠ 0 := by omega
      rw [show (dats m 0 c).leavesExact 4 t = owns (c : Thread nD τ) (ms4 t) fullShare ((dats m 0 c).after 4 t) from by
        unfold Dat.leavesExact; rw [live4 t hl], after4, outAt_last m c t hf hu hl, accAt_last m c t hf hu hl]
      unfold accLast outLast; (try dsimp only)
      rw [accInv_castSucc m c t, accInv_pos m c _ _ hz]
      iintro ⟨⟨HS, Hg⟩, Ho, ⟨%d0, H0⟩, ⟨%d1, H1⟩, ⟨%d2, H2⟩, ⟨%d3, H3⟩, ⟨%d4, H4⟩⟩
      iapply ((runLast c (grid0.coords t) _ _ _ _ _ _ _ _ _ _ _ _ hf hu hl (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (coverLastAcc c _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverLastOut c _ _ _ _ _ _ _ _ _ _ _ _ _ _ _ _ _ _ _ _ _)
    · have hl : ¬atLast (grid0.coords t) := fun h => h3 ((atLast_iff t).mp h)
      rw [Dat.leavesExact_idle (dats m 0 c) 4 t (idle4 t hl) (noFlush4 t hl)]
      by_cases hz : t.val = 0
      · -- the first point
        have hf : atFirst (grid0.coords t) := (atFirst_iff t).mpr hz
        rw [accAt_first m c t hf hu hl]
        unfold accFirst; (try dsimp only)
        rw [accInv_castSucc m c t, accInv_zero m c _ _ hz, rest_eq]
        iintro ⟨⟨HS, Hg⟩, Ho, ⟨%d0, H0⟩, ⟨%d1, H1⟩, ⟨%d2, H2⟩, ⟨%d3, H3⟩, ⟨%d4, H4⟩⟩
        iapply ((runFirst c (grid0.coords t) _ _ _ _ _ _ _ _ _ _ _ _ hf hu hl (iblk m c 0 t) (iblk m c 1 t) (iblk m c 2 t) (iblk m c 3 t)).2 Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (coverFirst c _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
      · -- a later point on or above the diagonal
        have hf : ¬atFirst (grid0.coords t) := fun h => hz ((atFirst_iff t).mp h)
        rw [accAt_add m c t hf hu hl]
        unfold accAdd; (try dsimp only)
        rw [accInv_castSucc m c t, accInv_pos m c _ _ hz]
        iintro ⟨⟨HS, Hg⟩, Ho, ⟨%d0, H0⟩, ⟨%d1, H1⟩, ⟨%d2, H2⟩, ⟨%d3, H3⟩, ⟨%d4, H4⟩⟩
        iapply ((runAdd c (grid0.coords t) _ _ _ _ _ _ _ _ _ _ _ _ hf hu hl (iblk m c 0 t) (iblk m c 1 t) (iblk m c 2 t) (iblk m c 3 t) _).2 Set.univ _)
        isplitl [H0]; · iexact H0
        isplitl [H1]; · iexact H1
        isplitl [H2]; · iexact H2
        isplitl [H3]; · iexact H3
        isplitl [HS]; · iexact HS
        iintro ⟨H0, H1, H2, H3, ⟨%es, HS⟩⟩
        isplitl [HS Hg]
        · isplitl [HS]
          · unfold owns; iexists _; isplitr
            swap; · iexact HS
            ipureintro; exact View.read_writes_of_cover _ _ _ _ _ (coverAdd c _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        iexists _; iexact H4
  · -- below the diagonal of tiles: the body touches nothing
    have hu : ¬onUpper (grid0.coords t) := fun h => h2 ((onUpper_iff t).mp h)
    have hz : t.val ≠ 0 := fun h => h2 (by rw [h])
    have hf : ¬atFirst (grid0.coords t) := fun h => hz ((atFirst_iff t).mp h)
    have hl : ¬atLast (grid0.coords t) := fun h => h2 (by rw [(atLast_iff t).mp h])
    rw [Dat.leavesExact_idle (dats m 0 c) 4 t (idle4 t hl) (noFlush4 t hl)]
    rw [accAt_skip m c t hf hu]
    rw [accInv_castSucc m c t, accInv_pos m c _ _ hz]
    iintro ⟨⟨HS, Hg⟩, Ho, ⟨%d0, H0⟩, ⟨%d1, H1⟩, ⟨%d2, H2⟩, ⟨%d3, H3⟩, ⟨%d4, H4⟩⟩
    iapply (runSkip c (grid0.coords t) _ _ _ _ _ _ _ _ _ _ _ _ hf hu hl iprop(∃ r, prngReg c r) Set.univ _)
    isplitl [Hg]
    · iexact Hg
    iintro Hg
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = accInv m c 0 (Nat.zero_le _) from rfl, accInv_zero m c 0 _ rfl]
  try exact Idealize.SL.BI.Entails.refl _

/-- After any point the invariant gives back what the launch handed: the accumulator's contents are forgotten. -/
theorem inv_out (c : Dev nD) (t : Fin (cfg0.N + 1)) (ht : t.val ≠ 0) : (dats m 0 c).Φ t ⊢ Pipeline.ΦA spec0 c := by
  rw [show (dats m 0 c).Φ t = accInv m c t.val (Nat.le_of_lt_succ t.isLt) from rfl, accInv_pos m c _ _ ht, rest_eq]
  iintro ⟨HS, Hg⟩
  isplitl [HS]
  · iexists _; iexact HS
  iexact Hg

theorem hout (c : Dev nD) : (dats m 0 c).Φ (Fin.last cfg0.N) ⊢ Pipeline.ΦA spec0 c :=
  inv_out m c _ (by rw [Fin.val_last]; have : cfg0.N = 256 := N_0; omega)

/-! ## The run and the frame -/

set_option backward.isDefEq.respectTransparency.types false in
/-- Every weakly fair execution of the program terminates, and every final state has every array of the pipeline
    at what the proof data say and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end and its two argument arrays end as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Walk

end
-- ==== Proof.IdealResult.lean ====
/-
  What the program's result holds at the end.

  The one-element result block is written back to its 1 × 1 array exactly once, after the last point of the walk,
  and that one block is the whole array; so if the body leaves the value R in the block at the last point, the
  array ends holding R. The program's last line only re-lays the 1 × 1 array as a scalar, which holds R again.
-/
import proofs.«173667_j59803124630165_1_alg».proof.Proof.IdealFrame
import Idealize.ShloMosaic.Lib.Pipeline.Value
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The result window's block index is (0, 0) at every point. -/
theorem outIndex : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Every index of the 1 × 1 array lies in the result window's block, at any point. -/
theorem mem_outBlock (t : Fin cfg0.N) (i : S1x1.Idx) : i ∈ ((cfg0.win 4).blk t).view.set := by
  show i ∈ ((View.whole main_v4).slice (win0_4.rect t)).set
  rw [View.set_slice_whole, Rect.mem_set_unit]
  obtain ⟨e0, e1⟩ := outIndex t
  intro a
  match a with
  | ⟨0, _⟩ =>
    show win0_4.index t (0 : Fin 2) * 1 ≤ (i 0).val ∧ (i 0).val < win0_4.index t (0 : Fin 2) * 1 + 1
    have hi : (i 0).val < 1 := (i 0).isLt
    omega
  | ⟨1, _⟩ =>
    show win0_4.index t (1 : Fin 2) * 1 ≤ (i 1).val ∧ (i 1).val < win0_4.index t (1 : Fin 2) * 1 + 1
    have hi : (i 1).val < 1 := (i 1).isLt
    omega

/-- The one point that writes the result block back (the last) covers the whole array. -/
theorem outCover (c : Dev nD) (i : ((cfg0.win 4).arr.view.loc (c.tc : Thread nD τ)).2.ty.Idx) :
    ∃ t : Fin cfg0.N, (cfg0.win 4).flush t = true ∧ i ∈ ((cfg0.win 4).blk t).view.set := by
  have hN : cfg0.N = 256 := N_0
  exact ⟨⟨255, by omega⟩, (flush0_4 _).mpr rfl, mem_outBlock _ i⟩

/-- What a point that writes the result block back writes: the constant R's block, when the body leaves R in the
    block at the last point (the only such point). -/
theorem outFlushed (c : Dev nD) (R : Elt F .f32) (hout : ∀ t : Fin cfg0.N, t.val = 255 → ∀ y, outAt m c t y = R)
    (t : Fin cfg0.N) (hf : (cfg0.win 4).flush t = true) :
    (dats m 0 c).flushed 4 t = ((cfg0.win 4).blk t).view.read (Elt F) (fun _ => R) := by
  show (cfg0.win 4).cut (grid0.coords t) ((dats m 0 c).after 4 t) = _
  rw [after4]
  have h255 : t.val = 255 := by
    have h := (flush0_4 t).mp hf
    have hN : t.val < 256 := lt_of_lt_of_eq t.isLt (show cfg0.N = 256 from N_0)
    omega
  funext j
  exact hout t h255 _

/-- The 1 × 1 result array after the run holds R. -/
theorem outFinal (c : Dev nD) (R : Elt F .f32) (hout : ∀ t : Fin cfg0.N, t.val = 255 → ∀ y, outAt m c t y = R) :
    (dats m 0 c).arrAt 4 cfg0.N = fun _ => R :=
  (dats m 0 c).arrAt_eq_of_cover 4 (fun _ => R) (fun t hf => outFlushed m c R hout t hf) (outCover c)

/-- The scalar the program returns (the 1 × 1 array re-laid by the line after the region) holds R. -/
theorem tailResult (c : Dev nD) (R : Elt F .f32) (hout : ∀ t : Fin cfg0.N, t.val = 255 → ∀ y, outAt m c t y = R) :
    Pipeline.afterTail₀ cfgs (dats m) 0 (V0 m) [hostOps1] c main_v5 = fun _ => R := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.tc.devRef main_v4) = (dats m 0 c).arrAt 4 cfg0.N :=
    Pipeline.withArrays_arr spec0 launch0.win.arr_inj c (V0 m c) _ 4
  rw [e, outFinal m c R hout]
  rfl

/-- The run, with the result named: every weakly fair execution terminates with the returned scalar at R (device by
    device) and both argument arrays as they were. -/
theorem run_value (R : Dev nD → Elt F .f32) (hout : ∀ (c : Dev nD) (t : Fin cfg0.N), t.val = 255 → ∀ y, outAt m c t y = R c) :
    θ_run defs (onTc (τ := τ) (main (F := F))) ⟨m, fun _ => 0, ρ⟩ (fun r => ∀ c : Dev nD,
      r.2.mem ((c.tc : Thread nD τ).loc main_v5) = (fun _ => R c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v5 (Pipeline.mem_restRefs_of main_v5 (by decide) (by decide))).trans (tailResult m c (R c) (hout c)),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Walk

end
-- ==== Proof.WalkPieces.lean ====
/-
  What each kind of point of the walk leaves behind, as a value: the pieces the body's stores leave in the
  accumulator and in the result block, read back, are the body's own arithmetic applied to the blocks it loaded.
  At the first point the accumulator is the cleared block with the tile's sum added; at every later point on or
  above the diagonal of tiles it is what was there with the tile's sum added; at the last point the result block
  is that, scaled.
-/
import proofs.«173667_j59803124630165_1_alg».proof.Proof.IdealFrame
import Idealize.ShloMosaic.Lib.Pipeline.Value
import Idealize.ShloMosaic.Lib.Tactic

set_option maxRecDepth 16384

noncomputable section

namespace Cert.KernelIdeal.Walk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

section PieceValues

variable (c : Dev nD) (i : grid0.Coords) (arg2 : Memref sig .tc .vmem S512x1 .f32) (harg2 : arg2.IsWhole) (arg3 : Memref sig .tc .vmem S1x512 .f32) (harg3 : arg3.IsWhole) (arg4 : Memref sig .tc .vmem S512x1 .f32) (harg4 : arg4.IsWhole) (arg5 : Memref sig .tc .vmem S1x512 .f32) (harg5 : arg5.IsWhole) (arg6 : Memref sig .tc .vmem S1x1 .f32) (harg6 : arg6.IsWhole) (arg7 : Memref sig .tc .vmem S1x1 .f32) (harg7 : arg7.IsWhole)

/-- The offsets of a whole-block access of a rank-2 buffer are all zero. -/
theorem hz : (![0, 0] : Fin 2 → Nat) = fun _ => 0 := funext fun a => by fin_cases a <;> rfl

/-- One step of the walk on the blocks loaded at a point: the tile's masked losses, summed, added to a block. -/
abbrev tileStep (x0 : Vec F S512x1 .f32) (x1 : Vec F S1x512 .f32) (x2 : Vec F S512x1 .f32) (x3 : Vec F S1x512 .f32)
    (xs : Vec F S1x1 .f32) : Vec F S1x1 .f32 :=
  k0_pay2 (k0_pay4 x2 x3 x0 x1) (k0_pay5 (BitVec.ofNat 32 (i 0).val) (BitVec.ofNat 32 (i 1).val))
    (Scalar.ofBits .f32 0x00000000#32) xs

/-- A later point on or above the diagonal that is not the last: its one store into the accumulator holds the step
    applied to what the accumulator held. -/
theorem accAdd_eq (h1 : ¬atFirst i) (h2 : onUpper i) (h3 : ¬atLast i) (x0 : Vec F S512x1 .f32) (x1 : Vec F S1x512 .f32)
    (x2 : Vec F S512x1 .f32) (x3 : Vec F S1x512 .f32) (xs : Vec F S1x1 .f32) :
    accAdd c i arg2 harg2 arg3 harg3 arg4 harg4 arg5 harg5 arg6 harg6 arg7 harg7 h1 h2 h3 x0 x1 x2 x3 xs = tileStep i x0 x1 x2 x3 xs := by
  unfold accAdd
  rw [View.read_writes_eq_canon _ _ _ (coverAdd c i arg2 harg2 arg3 harg3 arg4 harg4 arg5 harg5 arg6 harg6 arg7 harg7 h1 h2 h3 x0 x1 x2 x3 xs)]
  unfold runAdd
  dsimp only
  sl_unfold_words
  rw [View.canon_unit_zero hz]
  simp only [View.readAt_eq_ld, harg2.read_unread, harg3.read_unread, harg4.read_unread, harg5.read_unread,
    harg7.read_unread, View.ld_unit_zero (S := S512x1) hz, View.ld_unit_zero (S := S1x512) hz,
    View.ld_unit_zero (S := S1x1) hz]

/-- The last point: its store into the accumulator holds the step applied to what the accumulator held. -/
theorem accLast_eq (h1 : ¬atFirst i) (h2 : onUpper i) (h3 : atLast i) (x0 : Vec F S512x1 .f32) (x1 : Vec F S1x512 .f32)
    (x2 : Vec F S512x1 .f32) (x3 : Vec F S1x512 .f32) (xs : Vec F S1x1 .f32) :
    accLast c i arg2 harg2 arg3 harg3 arg4 harg4 arg5 harg5 arg6 harg6 arg7 harg7 h1 h2 h3 x0 x1 x2 x3 xs = tileStep i x0 x1 x2 x3 xs := by
  unfold accLast
  rw [View.read_writes_eq_canon _ _ _ (coverLastAcc c i arg2 harg2 arg3 harg3 arg4 harg4 arg5 harg5 arg6 harg6 arg7 harg7 h1 h2 h3 x0 x1 x2 x3 xs)]
  unfold runLast
  dsimp only
  sl_unfold_words
  rw [View.canon_unit_zero hz]
  simp only [View.readAt_eq_ld, harg2.read_unread, harg3.read_unread, harg4.read_unread, harg5.read_unread,
    harg7.read_unread, View.ld_unit_zero (S := S512x1) hz, View.ld_unit_zero (S := S1x512) hz,
    View.ld_unit_zero (S := S1x1) hz]

/-- The last point: its store into the result block holds the accumulator just stored — read back — scaled. -/
theorem outLast_eq (h1 : ¬atFirst i) (h2 : onUpper i) (h3 : atLast i) (x0 : Vec F S512x1 .f32) (x1 : Vec F S1x512 .f32)
    (x2 : Vec F S512x1 .f32) (x3 : Vec F S1x512 .f32) (xs : Vec F S1x1 .f32) :
    outLast c i arg2 harg2 arg3 harg3 arg4 harg4 arg5 harg5 arg6 harg6 arg7 harg7 h1 h2 h3 x0 x1 x2 x3 xs = k0_pay3 (tileStep i x0 x1 x2 x3 xs) := by
  unfold outLast
  rw [View.read_writes_eq_canon _ _ _ (coverLastOut c i arg2 harg2 arg3 harg3 arg4 harg4 arg5 harg5 arg6 harg6 arg7 harg7 h1 h2 h3 x0 x1 x2 x3 xs)]
  unfold runLast
  dsimp only
  sl_unfold_words
  rw [View.canon_unit_zero hz, View.readCov_unit_zero (S := S1x1) _ hz]
  simp only [View.readAt_eq_ld, harg2.read_unread, harg3.read_unread, harg4.read_unread, harg5.read_unread,
    harg7.read_unread, View.ld_unit_zero (S := S512x1) hz, View.ld_unit_zero (S := S1x512) hz,
    View.ld_unit_zero (S := S1x1) hz]

/-- The first point: the accumulator is cleared, read back, and the step's result stored over it. -/
theorem accFirst_eq (h1 : atFirst i) (h2 : onUpper i) (h3 : ¬atLast i) (x0 : Vec F S512x1 .f32) (x1 : Vec F S1x512 .f32)
    (x2 : Vec F S512x1 .f32) (x3 : Vec F S1x512 .f32) :
    accFirst c i arg2 harg2 arg3 harg3 arg4 harg4 arg5 harg5 arg6 harg6 arg7 harg7 h1 h2 h3 x0 x1 x2 x3 = tileStep i x0 x1 x2 x3 (k0_pay1 (F := F)) := by
  unfold accFirst
  rw [View.read_writes_eq_canon _ _ _ (coverFirst c i arg2 harg2 arg3 harg3 arg4 harg4 arg5 harg5 arg6 harg6 arg7 harg7 h1 h2 h3 x0 x1 x2 x3)]
  unfold runFirst
  dsimp only
  sl_unfold_words
  rw [View.canon_cons_unit_zero (S := S1x1) hz, View.readCov_unit_zero (S := S1x1) _ hz]
  simp only [View.readAt_eq_ld, harg2.read_unread, harg3.read_unread, harg4.read_unread, harg5.read_unread,
    harg7.read_unread, View.ld_unit_zero (S := S512x1) hz, View.ld_unit_zero (S := S1x512) hz,
    View.ld_unit_zero (S := S1x1) hz]

end PieceValues

end Cert.KernelIdeal.Walk

end
-- ==== Proof.Spec.lean ====
/-
  The pairwise ranking loss as one function of the two argument arrays, on the extended reals.

  For predictions p and targets t, both of length 8192, the ordered pair (r, c) with r < c contributes
      max 0 ( (β / (1 + γ·|t r − t c|)) · |t r − t c|  −  (p r − p c) · sign (t r − t c) ),
  a pair with r ≥ c contributes 0, and the result is the sum of all 8192 × 8192 contributions times 1/K,
  K = 8192·8191/2 = 33550336 the number of pairs r < c. The constants β, γ and 1 are kept as the float words
  the programs spell them with (the same words on both sides, so their values are never needed).

  The 8192 × 8192 pair matrix is also cut into 16 × 16 tiles of 512 × 512; `tile` is one tile's sum, and
  `accTo n` the running sum of the tiles met up to position n when the 256 tiles are visited row by row
  (position n is tile (n / 16, n % 16)), a tile strictly below the diagonal of tiles being skipped.
-/
import Idealize.ShloMosaic.PureOps.Ideal.Laws
import Idealize.ShloMosaic.Lib.ValueIdx

noncomputable section

open scoped BigOperators

namespace Cert.Spec

open Idealize.ShloMosaic Idealize.ShloMosaic.ValueIdx

/-- γ, as the extended real its float word denotes. -/
def cGamma : EReal := Ideal.ofBits .f32 0x3DCCCCCD#32
/-- 1, as the extended real its float word denotes. -/
def cOne : EReal := Ideal.ofBits .f32 0x3F800000#32
/-- β, as the extended real its float word denotes. -/
def cBeta : EReal := Ideal.ofBits .f32 0x3E99999A#32

/-- The magnitude |d| of an extended real. -/
def mag (d : EReal) : EReal := max d (-d)

/-- The margin a pair must clear when its targets differ by d: (β / (1 + γ·|d|)) · |d|. -/
def margin (d : EReal) : EReal := Ideal.div cBeta (cOne + cGamma * mag d) * mag d

/-- The hinge loss of the ordered pair (a, b), from its two predictions and two targets. -/
def pairLoss (pa pb ta tb : EReal) : EReal := max 0 (margin (ta - tb) - (pa - pb) * Ideal.sign (ta - tb))

/-- The contribution of row r, column c of the pair matrix: the pair's loss when r < c, nothing otherwise. -/
def entry (pred target : (⟨1, ![8192]⟩ : Shape).Idx → EReal) (r c : Fin 8192) : EReal :=
  if r < c then pairLoss (pred (ix1 r)) (pred (ix1 c)) (target (ix1 r)) (target (ix1 c)) else 0

/-- The sum of all contributions. -/
def total (pred target : (⟨1, ![8192]⟩ : Shape).Idx → EReal) : EReal :=
  ∑ r : Fin 8192, ∑ c : Fin 8192, entry pred target r c

/-- Position p of the i-th stretch of 512 consecutive positions. -/
def at512 (i : Fin 16) (p : Fin 512) : Fin 8192 := ⟨i.val * 512 + p.val, by omega⟩

/-- The sum of the contributions of tile (i, j): rows in stretch i, columns in stretch j. -/
def tile (pred target : (⟨1, ![8192]⟩ : Shape).Idx → EReal) (i j : Fin 16) : EReal :=
  ∑ p : Fin 512, ∑ q : Fin 512, entry pred target (at512 i p) (at512 j q)

/-- What position n of the row-by-row walk over the 16 × 16 tiles adds: its tile's sum when the tile is on or
    above the diagonal of tiles (row of tiles ≤ column of tiles), nothing otherwise (and nothing past the last
    position). -/
def contrib (pred target : (⟨1, ![8192]⟩ : Shape).Idx → EReal) (n : ℕ) : EReal :=
  if h : n < 256 then
    (if n / 16 ≤ n % 16 then tile pred target ⟨n / 16, by omega⟩ ⟨n % 16, by omega⟩ else 0)
  else 0

/-- The running sum after position n of the walk, started from 0. -/
def accTo (pred target : (⟨1, ![8192]⟩ : Shape).Idx → EReal) : ℕ → EReal
  | 0 => 0 + contrib pred target 0
  | n + 1 => accTo pred target n + contrib pred target (n + 1)

/-- 1/K for K = 33550336, the number of pairs r < c among 8192 items. -/
def invK : EReal := ((1 / 33550336 : ℝ) : EReal)

/-- The loss: the total times 1/K. -/
def result (pred target : (⟨1, ![8192]⟩ : Shape).Idx → EReal) : EReal := total pred target * invK

end Cert.Spec

end
-- ==== Proof.TileConst.lean ====
/-
  The two small payloads of the tile walk, read at the one index of a 1x1 block on the extended reals:
  the block the walk starts from is zero, and the block written out at the end is the accumulated block
  times 1/K, K = 33550336.
-/
import proofs.«173667_j59803124630165_1_alg».proof.Proof.Gen.KernelIdeal.Skeleton
import proofs.«173667_j59803124630165_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-- The named reciprocal denotes the rational 1/33550336, by the certificate's table. -/
theorem inv_K : Named.named (F := Ideal) Cert.KernelIdeal.κ "inv_K" (φ := .f32) 0x33000400#32 = Cert.Spec.invK :=
  IdealRules.named_const.ideal_named_scalar _ _ _ _ rfl

/-- The starting block: the zero word broadcast, cast to its own shape, is 0 at its index. -/
theorem pay1_at (y : S1x1.Idx) : k0_pay1 (F := Ideal) y = 0 := by
  unfold k0_pay1
  rw [shapeCast_self]
  exact Ideal.ofBits_zero_f32

/-- The block written out: the accumulated block times the named reciprocal. -/
theorem pay3_at (v : Vec Ideal S1x1 .f32) (y : S1x1.Idx) : k0_pay3 (F := Ideal) v y = v y * Cert.Spec.invK := by
  unfold k0_pay3
  show v y * Named.named (F := Ideal) Cert.KernelIdeal.κ "inv_K" (φ := .f32) 0x33000400#32 = _
  rw [inv_K]

end Cert.KernelIdeal.TileValue

end
-- ==== Proof.TileLoss.lean ====
/-
  The elementwise part of a tile: at row p and column q of a 512x512 tile, on the extended reals, the kernel's
  chain of vector operations over the two target blocks and the two prediction blocks is the hinge loss of the
  pair — the margin of the targets' difference less the predictions' difference times the sign of the targets'
  difference, cut at zero. A 512x1 block broadcast over the tile reads its row's entry, a 1x512 block its
  column's; the select over the sign-bit pattern is the sign.
-/
import proofs.«173667_j59803124630165_1_alg».proof.Proof.Gen.KernelIdeal.Skeleton
import proofs.«173667_j59803124630165_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-- A 512x1 block broadcast along the columns of the tile reads, at (p, q), its entry of row p. -/
theorem bcast_col (x : Vec Ideal S512x1 .f32) (p q : Fin 512) :
    broadcastTo S512x512 x broadcasts_S512x1_S512x512 (ix2 p q) = x (ix2 p (0 : Fin 1)) := by
  refine broadcastTo_apply x broadcasts_S512x1_S512x512 (ix2 p q) (ix2 p (0 : Fin 1)) fun ax => ?_
  match ax with
  | ⟨0, _⟩ => rfl
  | ⟨1, _⟩ => rfl

/-- A 1x512 block broadcast along the rows of the tile reads, at (p, q), its entry of column q. -/
theorem bcast_row (x : Vec Ideal S1x512 .f32) (p q : Fin 512) :
    broadcastTo S512x512 x broadcasts_S1x512_S512x512 (ix2 p q) = x (ix2 (0 : Fin 1) q) := by
  refine broadcastTo_apply x broadcasts_S1x512_S512x512 (ix2 p q) (ix2 (0 : Fin 1) q) fun ax => ?_
  match ax with
  | ⟨0, _⟩ => rfl
  | ⟨1, _⟩ => rfl

/-- The magnitude of a vector at an index: the larger of the element and its negation. -/
theorem absf_at {s : Shape} (a : FVec Ideal s .f32) (i : s.Idx) : absf a i = max (a i) (-(a i)) := rfl

/-- The select over "1.0 carrying the sign bit", taken where the magnitude is above zero and the element itself
    elsewhere, is the sign of the element, at every index. -/
theorem sign_at {s : Shape} (d : FVec Ideal s .f32) (i : s.Idx) :
    select (cmpf .ogt (absf d) (broadcast s (Scalar.ofBits .f32 0x00000000#32)))
        (select (cmpf .olt d (constant s .f32 0x00000000#32)) (constant s .f32 0xBF800000#32)
          (constant s .f32 0x3F800000#32)) d i
      = Ideal.sign (d i) :=
  Ideal.jnp_sign_eq_sign_f32 (d i)

/-- The tile's loss block at (p, q) is the pair's hinge loss, from row p of the two column blocks and column q of
    the two row blocks (x2, x3 the targets; x0, x1 the predictions). -/
theorem loss_at (x0 x2 : Vec Ideal S512x1 .f32) (x1 x3 : Vec Ideal S1x512 .f32) (p q : Fin 512) :
    k0_pay4 (F := Ideal) x2 x3 x0 x1 (ix2 p q)
      = Cert.Spec.pairLoss (x0 (ix2 p (0 : Fin 1))) (x1 (ix2 (0 : Fin 1) q)) (x2 (ix2 p (0 : Fin 1))) (x3 (ix2 (0 : Fin 1) q)) := by
  unfold k0_pay4
  simp only [shapeCast_self, maximumf_apply, subf_apply, mulf_apply, divf_apply, addf_apply, broadcast_apply, absf_at,
    sign_at]
  rw [bcast_col x2 p q, bcast_row x3 p q, bcast_col x0 p q, bcast_row x1 p q]
  simp only [Ideal.ofBits_def, Ideal.ofBits_zero_f32, Cert.Spec.pairLoss, Cert.Spec.margin, Cert.Spec.mag, Cert.Spec.cBeta,
    Cert.Spec.cOne, Cert.Spec.cGamma]

end Cert.KernelIdeal.TileValue

end
-- ==== Proof.TileMask.lean ====
/-
  The mask of a tile: at row p and column q of tile (i, j) the kernel compares the two global positions
  i·512 + p and j·512 + q as signed 32-bit words. Every position is below 8192, so no product or sum wraps, a
  word read signed is the position itself, and the comparison is the order of the positions.
-/
import proofs.«173667_j59803124630165_1_alg».proof.Proof.Gen.KernelIdeal.Skeleton
import proofs.«173667_j59803124630165_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-- A position below 8192, as a 32-bit word read signed, is itself. -/
theorem toInt_word (a : Nat) (ha : a < 8192) : (BitVec.ofNat 32 a).toInt = (a : Int) := by
  have h1 : (BitVec.ofNat 32 a).toNat = a := by
    rw [BitVec.toNat_ofNat]; exact Nat.mod_eq_of_lt (by omega)
  rw [BitVec.toInt_eq_toNat_of_lt (by rw [h1]; omega), h1]

/-- The signed comparison of two such words is the order of the positions. -/
theorem word_slt (a b : Nat) (ha : a < 8192) (hb : b < 8192) :
    (BitVec.ofNat 32 a).slt (BitVec.ofNat 32 b) = decide (a < b) := by
  unfold BitVec.slt
  rw [toInt_word a ha, toInt_word b hb]
  exact decide_eq_decide.mpr (by omega)

/-- Coordinate p plus 512 times the tile's number, computed on words, is the word of the position. -/
theorem word_tile (i p : Nat) : BitVec.ofNat 32 p + BitVec.ofNat 32 i * 512#32 = BitVec.ofNat 32 (i * 512 + p) := by
  rw [Nat.add_comm, BitVec.ofNat_add, BitVec.ofNat_mul]

/-- The tile's mask at (p, q): the bit of "position of row p in stretch i is before position of column q in
    stretch j". -/
theorem mask_at (i j : Fin 16) (p q : Fin 512) :
    k0_pay5 (BitVec.ofNat 32 i.val) (BitVec.ofNat 32 j.val) (ix2 p q)
      = BitVec.ofBool (decide (Cert.Spec.at512 i p < Cert.Spec.at512 j q)) := by
  have e0 : iota .tc S512x512 32 [0] iota_S512x512_d0_w32 (ix2 p q) = BitVec.ofNat 32 p.val :=
    iota_single_apply _ _ _ _ _ _
  have e1 : iota .tc S512x512 32 [1] iota_S512x512_d1_w32 (ix2 p q) = BitVec.ofNat 32 q.val :=
    iota_single_apply _ _ _ _ _ _
  unfold k0_pay5
  show BitVec.ofBool ((iota .tc S512x512 32 [0] iota_S512x512_d0_w32 (ix2 p q) + BitVec.ofNat 32 i.val * 512#32).slt
      (iota .tc S512x512 32 [1] iota_S512x512_d1_w32 (ix2 p q) + BitVec.ofNat 32 j.val * 512#32)) = _
  rw [e0, e1, word_tile, word_tile, word_slt _ _ (by omega) (by omega)]
  rfl

/-- A select on the bit of a decided proposition is the `if` on the proposition. -/
theorem select_ofBool {α : Type} (P : Prop) [Decidable P] (a b : α) :
    Scalar.select (BitVec.ofBool (decide P)) a b = if P then a else b := by
  by_cases h : P <;> simp [Scalar.select, h]

end Cert.KernelIdeal.TileValue

end
-- ==== Proof.TileSum.lean ====
/-
  The two lane sums of a tile: summing a 512x512 block along its columns, viewing the 512 row sums as a 512x1
  block, summing that along its rows and viewing the one total as a 1x1 block gives, at the block's one index,
  the double sum over rows p and columns q of the block's entries — on the extended reals, where a sum along an
  axis is the finite sum over that axis's coordinates.
-/
import proofs.«173667_j59803124630165_1_alg».proof.Proof.Gen.KernelIdeal.Skeleton
import proofs.«173667_j59803124630165_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.TileValue

open Cert.KernelIdeal Cert.KernelIdeal.Gen Idealize.ShloMosaic Idealize.ShloMosaic.ValueIdx

/-- The index of the tile over row p with column q inserted is (p, q). -/
theorem lift_row (p q : Fin 512) :
    Shape.Reduces.lift reduces_S512x512_S512 (ix1 p) q = ix2 p q := by
  funext c
  match c with
  | ⟨0, _⟩ => exact Fin.ext rfl
  | ⟨1, _⟩ => exact Fin.ext rfl

/-- The index of the 512x1 block over its one column u with row p inserted is (p, u). -/
theorem lift_col (u : Fin 1) (p : Fin 512) :
    Shape.Reduces.lift reduces_S512x1_S1 (ix1 u) p = ix2 p u := by
  funext c
  match c with
  | ⟨0, _⟩ => exact Fin.ext rfl
  | ⟨1, _⟩ => exact Fin.ext rfl

/-- The sum of the tile along its columns, at row p, is the sum over q of the entries of row p. -/
theorem rowsum_at (w : FVec Ideal S512x512 .f32) (p : Fin 512) :
    multiReduction .add [1] S512 w 0x00000000#32 reduces_S512x512_S512 (.inl rfl) rfl (ix1 p)
      = ∑ q : Fin 512, w (ix2 p q) := by
  refine (Ideal.multiReduction_add_single w 0x00000000#32 reduces_S512x512_S512 (.inl rfl) rfl (ix1 p)).trans ?_
  exact Finset.sum_congr rfl fun q _ => congrArg w (lift_row p q)

/-- The sum of a 512x1 block along its rows, at its one column u, is the sum over p of its entries. -/
theorem colsum_at (v : FVec Ideal S512x1 .f32) (u : Fin 1) :
    multiReduction .add [0] S1 v 0x00000000#32 reduces_S512x1_S1 (.inl rfl) rfl (ix1 u)
      = ∑ p : Fin 512, v (ix2 p u) := by
  refine (Ideal.multiReduction_add_single v 0x00000000#32 reduces_S512x1_S1 (.inl rfl) rfl (ix1 u)).trans ?_
  exact Finset.sum_congr rfl fun p _ => congrArg v (lift_col u p)

/-- 512 values viewed as a 512x1 block: entry (p, u) is value p. -/
theorem cast_col (v : FVec Ideal S512 .f32) (p : Fin 512) (u : Fin 1) :
    shapeCast S512x1 v shapeCasts_S512_S512x1 (ix2 p u) = v (ix1 p) :=
  shapeCast_apply v shapeCasts_S512_S512x1 (ix2 p u) (ix1 p) (by
    have hu : u.val = 0 := by omega
    rw [Shape.rowMajor_val_one, Shape.rowMajor_val_two]
    show p.val = p.val * 1 + u.val
    omega)

/-- One value viewed as a 1x1 block: its one entry is the value. -/
theorem cast_one (v : FVec Ideal S1 .f32) (a b : Fin 1) :
    shapeCast S1x1 v shapeCasts_S1_S1x1 (ix2 a b) = v (ix1 b) :=
  shapeCast_a_1a_apply v shapeCasts_S1_S1x1 a b

/-- The whole chain: the total of the tile, at the one index of the 1x1 block, is the double sum of its entries. -/
theorem total_at (w : FVec Ideal S512x512 .f32) (y : S1x1.Idx) :
    shapeCast S1x1
        (multiReduction .add [0] S1
          (shapeCast S512x1 (multiReduction .add [1] S512 w 0x00000000#32 reduces_S512x512_S512 (.inl rfl) rfl)
            shapeCasts_S512_S512x1)
          0x00000000#32 reduces_S512x1_S1 (.inl rfl) rfl)
        shapeCasts_S1_S1x1 y
      = ∑ p : Fin 512, ∑ q : Fin 512, w (ix2 p q) := by
  obtain ⟨a, b, rfl⟩ : ∃ a b : Fin 1, y = ix2 a b := ⟨y 0, y 1, eq_ix2 y⟩
  refine (cast_one _ a b).trans ?_
  refine (colsum_at _ b).trans ?_
  refine Finset.sum_congr rfl fun p _ => ?_
  refine (cast_col _ p b).trans ?_
  exact rowsum_at w p

end Cert.KernelIdeal.TileValue

end
-- ==== Proof.TilePayload.lean ====
/-
  What one step of the tile walk adds to the accumulated 1x1 block, on the extended reals: the block read before
  plus, over rows p and columns q of tile (i, j), the pair's hinge loss where the row's global position
  i·512 + p is before the column's j·512 + q, and nothing elsewhere. The pieces: the loss block at an entry, the
  mask at an entry, and the two lane sums as a double sum.
-/
import proofs.«173667_j59803124630165_1_alg».proof.Proof.TileConst
import proofs.«173667_j59803124630165_1_alg».proof.Proof.TileLoss
import proofs.«173667_j59803124630165_1_alg».proof.Proof.TileMask
import proofs.«173667_j59803124630165_1_alg».proof.Proof.TileSum

noncomputable section

open scoped BigOperators

namespace Cert.KernelIdeal.TileValue

open Cert.KernelIdeal Cert.KernelIdeal.Gen Idealize.ShloMosaic Idealize.ShloMosaic.ValueIdx

/-- The masked loss block at (p, q): the pair's loss where the mask's bit is set, the zero word elsewhere. -/
theorem masked_at (x0 x2 : Vec Ideal S512x1 .f32) (x1 x3 : Vec Ideal S1x512 .f32) (i j : Fin 16) (p q : Fin 512) :
    select (k0_pay5 (BitVec.ofNat 32 i.val) (BitVec.ofNat 32 j.val)) (k0_pay4 (F := Ideal) x2 x3 x0 x1)
        (broadcast S512x512 (Scalar.ofBits .f32 0x00000000#32)) (ix2 p q)
      = if Cert.Spec.at512 i p < Cert.Spec.at512 j q
          then Cert.Spec.pairLoss (x0 (ix2 p (0 : Fin 1))) (x1 (ix2 (0 : Fin 1) q)) (x2 (ix2 p (0 : Fin 1))) (x3 (ix2 (0 : Fin 1) q))
          else 0 := by
  refine (select_apply _ _ _ (ix2 p q)).trans ?_
  rw [mask_at, loss_at, select_ofBool]
  show (if _ then _ else Ideal.ofBits .f32 0x00000000#32) = _
  rw [Ideal.ofBits_zero_f32]

/-- One step of the walk at tile (i, j): the accumulated block plus the tile's masked losses. -/
theorem pay2_at (x0 x2 : Vec Ideal S512x1 .f32) (x1 x3 : Vec Ideal S1x512 .f32) (i j : Fin 16)
    (acc : Vec Ideal S1x1 .f32) (y : S1x1.Idx) :
    k0_pay2 (F := Ideal) (k0_pay4 x2 x3 x0 x1) (k0_pay5 (BitVec.ofNat 32 i.val) (BitVec.ofNat 32 j.val))
        (Scalar.ofBits .f32 0x00000000#32) acc y
      = acc y + ∑ p : Fin 512, ∑ q : Fin 512,
          (if Cert.Spec.at512 i p < Cert.Spec.at512 j q
            then Cert.Spec.pairLoss (x0 (ix2 p 0)) (x1 (ix2 0 q)) (x2 (ix2 p 0)) (x3 (ix2 0 q)) else 0) := by
  unfold k0_pay2
  simp only [shapeCast_self, addf_apply]
  refine congrArg (acc y + ·) ((total_at _ y).trans ?_)
  exact Finset.sum_congr rfl fun p _ => Finset.sum_congr rfl fun q _ => masked_at x0 x2 x1 x3 i j p q

end Cert.KernelIdeal.TileValue

end
-- ==== Proof.BlockReads.lean ====
/-
  The four input blocks of a tile, read at a position.

  Before the tiled computation starts, the predictions (length 8192) are laid out twice, as an 8192 × 1 column and
  as a 1 × 8192 row, and the targets likewise; a reshape keeps the row-major order, so position (k, 0) of a column
  and position (0, k) of a row both hold item k. Grid point t is tile (t / 16, t % 16). At that point the column
  windows hold the 512 × 1 block with block index (t / 16, 0) and the row windows the 1 × 512 block with block index
  (0, t % 16); an element of a block sits in its array, on each axis, at block index × block size + its own
  coordinate. So position (p, 0) of a column block is item (t / 16)·512 + p, and position (0, q) of a row block is
  item (t % 16)·512 + q.
-/
import proofs.«173667_j59803124630165_1_alg».proof.Proof.Gen.KernelIdeal.Frame
import proofs.«173667_j59803124630165_1_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.BlockReads

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! ### The four laid-out arrays as the tiled computation finds them -/

/-- The column of predictions is the predictions in row-major order at shape 8192 × 1. -/
theorem V_main_v0 (c : Dev nD) :
    V m c main_v0 = shapeCast S8192x1 (m ((c : Thread nD τ).loc main_arg0)) shapeCasts_S8192_S8192x1 := by
  show StableHlo.after hostOps0 (fun b => m (c, b)) (Proc.devRef .tc main_v0) = _
  after_results; rfl

/-- The row of predictions is the predictions in row-major order at shape 1 × 8192. -/
theorem V_main_v1 (c : Dev nD) :
    V m c main_v1 = shapeCast S1x8192 (m ((c : Thread nD τ).loc main_arg0)) shapeCasts_S8192_S1x8192 := by
  show StableHlo.after hostOps0 (fun b => m (c, b)) (Proc.devRef .tc main_v1) = _
  after_results; rfl

/-- The column of targets is the targets in row-major order at shape 8192 × 1. -/
theorem V_main_v2 (c : Dev nD) :
    V m c main_v2 = shapeCast S8192x1 (m ((c : Thread nD τ).loc main_arg1)) shapeCasts_S8192_S8192x1 := by
  show StableHlo.after hostOps0 (fun b => m (c, b)) (Proc.devRef .tc main_v2) = _
  after_results; rfl

/-- The row of targets is the targets in row-major order at shape 1 × 8192. -/
theorem V_main_v3 (c : Dev nD) :
    V m c main_v3 = shapeCast S1x8192 (m ((c : Thread nD τ).loc main_arg1)) shapeCasts_S8192_S1x8192 := by
  show StableHlo.after hostOps0 (fun b => m (c, b)) (Proc.devRef .tc main_v3) = _
  after_results; rfl

/-! ### The block indices over the grid -/

/-- A grid point is one of 256. -/
theorem point_lt (t : Fin cfg0.N) : t.val < 256 := lt_of_lt_of_eq t.isLt N_0

/-- The row of tiles of grid point t. -/
theorem tileRow_lt (t : Fin cfg0.N) : t.val / 16 < 16 := by have := point_lt t; omega

/-- The column of tiles of grid point t. -/
theorem tileCol_lt (t : Fin cfg0.N) : t.val % 16 < 16 := Nat.mod_lt _ (by decide)

/-- The column windows' block index at point t is (t / 16, 0); the row windows' is (0, t % 16). -/
theorem index_facts : ∀ t : Fin cfg0.N,
    win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = t.val / 16 ∧ win0_2.index t (1 : Fin 2) = 0
    ∧ win0_3.index t (0 : Fin 2) = 0 ∧ win0_3.index t (1 : Fin 2) = t.val % 16 :=
  (by decide +kernel : ∀ t : Fin grid0.N, _)

/-! ### The blocks at a position, for any name i of the row of tiles and j of the column of tiles -/

/-- Position (p, 0) of the predictions' column block at point t is prediction i·512 + p, i = t / 16. -/
theorem predRow_at_of (c : Dev nD) (t : Fin cfg0.N) (p : Fin 512) (i : Fin 16) (hi : i.val = t.val / 16) :
    Gen.iblk m c 0 t (ix2 (n0 := 512) (n1 := 1) p 0)
      = m ((c : Thread nD τ).loc main_arg0) (ix1 (Cert.Spec.at512 i p)) := by
  show V m c main_v0 (((cfg0.win 0).blk t).view.emb (ix2 (n0 := 512) (n1 := 1) p 0)) = _
  rw [V_main_v0]
  obtain ⟨e0, e1, -⟩ := index_facts t
  refine shapeCast_apply _ _ _ _ ?_
  show ((⟨1, ![8192]⟩ : Shape).rowMajor (ix1 (Cert.Spec.at512 i p))).val
    = ((⟨2, ![8192, 1]⟩ : Shape).rowMajor (((cfg0.win 0).blk t).view.emb (ix2 (n0 := 512) (n1 := 1) p 0))).val
  rw [Shape.rowMajor_val_one, Shape.rowMajor_val_two]
  show (i.val * 512 + p.val)
    = (win0_0.index t (0 : Fin 2) * 512 + 1 * p.val) * 1 + (win0_0.index t (1 : Fin 2) * 1 + 1 * 0)
  omega

/-- Position (0, q) of the predictions' row block at point t is prediction j·512 + q, j = t % 16. -/
theorem predCol_at_of (c : Dev nD) (t : Fin cfg0.N) (q : Fin 512) (j : Fin 16) (hj : j.val = t.val % 16) :
    Gen.iblk m c 1 t (ix2 (n0 := 1) (n1 := 512) 0 q)
      = m ((c : Thread nD τ).loc main_arg0) (ix1 (Cert.Spec.at512 j q)) := by
  show V m c main_v1 (((cfg0.win 1).blk t).view.emb (ix2 (n0 := 1) (n1 := 512) 0 q)) = _
  rw [V_main_v1]
  obtain ⟨-, -, e0, e1, -⟩ := index_facts t
  refine shapeCast_apply _ _ _ _ ?_
  show ((⟨1, ![8192]⟩ : Shape).rowMajor (ix1 (Cert.Spec.at512 j q))).val
    = ((⟨2, ![1, 8192]⟩ : Shape).rowMajor (((cfg0.win 1).blk t).view.emb (ix2 (n0 := 1) (n1 := 512) 0 q))).val
  rw [Shape.rowMajor_val_one, Shape.rowMajor_val_two]
  show (j.val * 512 + q.val)
    = (win0_1.index t (0 : Fin 2) * 1 + 1 * 0) * 8192 + (win0_1.index t (1 : Fin 2) * 512 + 1 * q.val)
  omega

/-- Position (p, 0) of the targets' column block at point t is target i·512 + p, i = t / 16. -/
theorem targetRow_at_of (c : Dev nD) (t : Fin cfg0.N) (p : Fin 512) (i : Fin 16) (hi : i.val = t.val / 16) :
    Gen.iblk m c 2 t (ix2 (n0 := 512) (n1 := 1) p 0)
      = m ((c : Thread nD τ).loc main_arg1) (ix1 (Cert.Spec.at512 i p)) := by
  show V m c main_v2 (((cfg0.win 2).blk t).view.emb (ix2 (n0 := 512) (n1 := 1) p 0)) = _
  rw [V_main_v2]
  obtain ⟨-, -, -, -, e0, e1, -⟩ := index_facts t
  refine shapeCast_apply _ _ _ _ ?_
  show ((⟨1, ![8192]⟩ : Shape).rowMajor (ix1 (Cert.Spec.at512 i p))).val
    = ((⟨2, ![8192, 1]⟩ : Shape).rowMajor (((cfg0.win 2).blk t).view.emb (ix2 (n0 := 512) (n1 := 1) p 0))).val
  rw [Shape.rowMajor_val_one, Shape.rowMajor_val_two]
  show (i.val * 512 + p.val)
    = (win0_2.index t (0 : Fin 2) * 512 + 1 * p.val) * 1 + (win0_2.index t (1 : Fin 2) * 1 + 1 * 0)
  omega

/-- Position (0, q) of the targets' row block at point t is target j·512 + q, j = t % 16. -/
theorem targetCol_at_of (c : Dev nD) (t : Fin cfg0.N) (q : Fin 512) (j : Fin 16) (hj : j.val = t.val % 16) :
    Gen.iblk m c 3 t (ix2 (n0 := 1) (n1 := 512) 0 q)
      = m ((c : Thread nD τ).loc main_arg1) (ix1 (Cert.Spec.at512 j q)) := by
  show V m c main_v3 (((cfg0.win 3).blk t).view.emb (ix2 (n0 := 1) (n1 := 512) 0 q)) = _
  rw [V_main_v3]
  obtain ⟨-, -, -, -, -, -, e0, e1⟩ := index_facts t
  refine shapeCast_apply _ _ _ _ ?_
  show ((⟨1, ![8192]⟩ : Shape).rowMajor (ix1 (Cert.Spec.at512 j q))).val
    = ((⟨2, ![1, 8192]⟩ : Shape).rowMajor (((cfg0.win 3).blk t).view.emb (ix2 (n0 := 1) (n1 := 512) 0 q))).val
  rw [Shape.rowMajor_val_one, Shape.rowMajor_val_two]
  show (j.val * 512 + q.val)
    = (win0_3.index t (0 : Fin 2) * 1 + 1 * 0) * 8192 + (win0_3.index t (1 : Fin 2) * 512 + 1 * q.val)
  omega

/-! ### The same with the tile's row and column written out -/

/-- Position (p, 0) of the predictions' column block at point t is prediction (t / 16)·512 + p. -/
theorem predRow_at (c : Dev nD) (t : Fin cfg0.N) (p : Fin 512) :
    Gen.iblk m c 0 t (ix2 (n0 := 512) (n1 := 1) p 0)
      = m ((c : Thread nD τ).loc main_arg0) (ix1 (Cert.Spec.at512 ⟨t.val / 16, tileRow_lt t⟩ p)) :=
  predRow_at_of m c t p ⟨t.val / 16, tileRow_lt t⟩ rfl

/-- Position (0, q) of the predictions' row block at point t is prediction (t % 16)·512 + q. -/
theorem predCol_at (c : Dev nD) (t : Fin cfg0.N) (q : Fin 512) :
    Gen.iblk m c 1 t (ix2 (n0 := 1) (n1 := 512) 0 q)
      = m ((c : Thread nD τ).loc main_arg0) (ix1 (Cert.Spec.at512 ⟨t.val % 16, tileCol_lt t⟩ q)) :=
  predCol_at_of m c t q ⟨t.val % 16, tileCol_lt t⟩ rfl

/-- Position (p, 0) of the targets' column block at point t is target (t / 16)·512 + p. -/
theorem targetRow_at (c : Dev nD) (t : Fin cfg0.N) (p : Fin 512) :
    Gen.iblk m c 2 t (ix2 (n0 := 512) (n1 := 1) p 0)
      = m ((c : Thread nD τ).loc main_arg1) (ix1 (Cert.Spec.at512 ⟨t.val / 16, tileRow_lt t⟩ p)) :=
  targetRow_at_of m c t p ⟨t.val / 16, tileRow_lt t⟩ rfl

/-- Position (0, q) of the targets' row block at point t is target (t % 16)·512 + q. -/
theorem targetCol_at (c : Dev nD) (t : Fin cfg0.N) (q : Fin 512) :
    Gen.iblk m c 3 t (ix2 (n0 := 1) (n1 := 512) 0 q)
      = m ((c : Thread nD τ).loc main_arg1) (ix1 (Cert.Spec.at512 ⟨t.val % 16, tileCol_lt t⟩ q)) :=
  targetCol_at_of m c t q ⟨t.val % 16, tileCol_lt t⟩ rfl

end Cert.KernelIdeal.BlockReads

end
-- ==== Proof.LibBlockedSum.lean ====
/-
  A finite sum cut into consecutive blocks.

  A sum over the `a * b` indices `0, 1, …, a * b - 1` is the sum, over the `a` blocks `s = 0, …, a - 1`, of the
  block's own sum over its `b` consecutive indices `s * b, s * b + 1, …, s * b + (b - 1)`. Addition is only asked
  to be commutative and associative (any additive commutative monoid: the extended reals qualify, where
  cancellation and distributivity may fail at the infinities but re-bracketing and re-ordering a sum never do).
  This is the law that joins a contraction computed one block of the contracted axis at a time with the same
  contraction computed in one go.
-/
import Mathlib.Algebra.BigOperators.Fin
import Mathlib.Logic.Equiv.Fin.Basic

open scoped BigOperators

namespace BlockedSum

/-- The `k`-th index of block `s` is an index of the whole range. -/
theorem block_index_lt {a b : ℕ} (s : Fin a) (k : Fin b) : s.val * b + k.val < a * b := by
  have hs : s.val + 1 ≤ a := s.isLt
  have hk : k.val < b := k.isLt
  calc s.val * b + k.val < s.val * b + b := Nat.add_lt_add_left hk _
    _ = (s.val + 1) * b := (Nat.succ_mul _ _).symm
    _ ≤ a * b := Nat.mul_le_mul_right b hs

/-- The `k`-th index of block `s`, as an index of the whole range. -/
def blockIndex {a b : ℕ} (s : Fin a) (k : Fin b) : Fin (a * b) := ⟨s.val * b + k.val, block_index_lt s k⟩

@[simp] theorem blockIndex_val {a b : ℕ} (s : Fin a) (k : Fin b) : (blockIndex s k).val = s.val * b + k.val := rfl

/-- A sum over `a * b` indices is the sum of its `a` consecutive blocks of `b` terms each. -/
theorem sum_eq_sum_blocks {M : Type*} [AddCommMonoid M] (a b : ℕ) (f : Fin (a * b) → M) :
    ∑ i : Fin (a * b), f i = ∑ s : Fin a, ∑ k : Fin b, f (blockIndex s k) := by
  rw [← Equiv.sum_comp finProdFinEquiv f, Fintype.sum_prod_type]
  refine Finset.sum_congr rfl fun s _ => Finset.sum_congr rfl fun k _ => congrArg f (Fin.ext ?_)
  show k.val + b * s.val = s.val * b + k.val
  rw [Nat.add_comm, Nat.mul_comm]

/-- The same with the blocks counted by a natural number below `a` (a `Finset.range` sum, the form a fold over
    consecutive steps unrolls to): `g` gives block `s`'s term at its `k`-th place, and agrees with `f` there. -/
theorem sum_range_blocks {M : Type*} [AddCommMonoid M] (a b : ℕ) (f : Fin (a * b) → M) (g : ℕ → Fin b → M)
    (hg : ∀ (s : Fin a) (k : Fin b), g s.val k = f (blockIndex s k)) :
    ∑ s ∈ Finset.range a, ∑ k : Fin b, g s k = ∑ i : Fin (a * b), f i := by
  rw [sum_eq_sum_blocks, Finset.sum_range]
  exact Finset.sum_congr rfl fun s _ => Finset.sum_congr rfl fun k _ => hg s k

end BlockedSum
-- ==== Proof.TileAlgebra.lean ====
/-
  The sum of the whole 8192 × 8192 pair matrix, re-bracketed tile by tile.

  The extended reals are an additive commutative monoid, so a finite sum may be re-ordered and re-bracketed
  freely and 0 is neutral; nothing below needs any term to be finite.

  * A tile strictly below the diagonal of tiles (column stretch j before row stretch i) has every row index
    i·512 + p ≥ (j + 1)·512 > j·512 + q above every column index, so each of its entries is the 0 branch.
  * Cutting both axes into 16 stretches of 512 and exchanging the two middle sums turns the total into the
    sum of the 256 tile sums.
  * The running sum of the row-by-row walk over the tiles is the sum of what each position adds; position
    n = i·16 + j adds tile (i, j) when i ≤ j and 0 otherwise, which is tile (i, j) in both cases.
-/
import proofs.«173667_j59803124630165_1_alg».proof.Proof.Spec
import proofs.«173667_j59803124630165_1_alg».proof.Proof.LibBlockedSum

noncomputable section

open scoped BigOperators

namespace Cert.Spec

open Idealize.ShloMosaic Idealize.ShloMosaic.ValueIdx

variable (pred target : (⟨1, ![8192]⟩ : Shape).Idx → EReal)

/-- A tile strictly below the diagonal of tiles sums to 0: each of its rows lies after each of its columns. -/
theorem tile_eq_zero_of_lt (i j : Fin 16) (h : j < i) : tile pred target i j = 0 := by
  unfold tile
  refine Finset.sum_eq_zero fun p _ => Finset.sum_eq_zero fun q _ => ?_
  unfold entry
  rw [if_neg]
  intro hlt
  have h1 : (at512 i p).val < (at512 j q).val := hlt
  simp only [at512] at h1
  have hp := p.isLt
  have hq := q.isLt
  have hji : j.val < i.val := h
  omega

/-- A sum over the 8192 positions is the sum over the 16 stretches of the sum over each stretch's 512 positions. -/
theorem sum_stretches {M : Type*} [AddCommMonoid M] (f : Fin 8192 → M) :
    ∑ r : Fin 8192, f r = ∑ i : Fin 16, ∑ p : Fin 512, f (at512 i p) :=
  BlockedSum.sum_eq_sum_blocks 16 512 f

/-- The total is the sum of the 16 × 16 tile sums. -/
theorem total_eq_sum_tiles :
    total pred target = ∑ i : Fin 16, ∑ j : Fin 16, tile pred target i j := by
  unfold total tile
  rw [sum_stretches]
  refine Finset.sum_congr rfl fun i _ => ?_
  calc ∑ p : Fin 512, ∑ c : Fin 8192, entry pred target (at512 i p) c
      = ∑ p : Fin 512, ∑ j : Fin 16, ∑ q : Fin 512, entry pred target (at512 i p) (at512 j q) :=
        Finset.sum_congr rfl fun p _ => sum_stretches _
    _ = ∑ j : Fin 16, ∑ p : Fin 512, ∑ q : Fin 512, entry pred target (at512 i p) (at512 j q) :=
        Finset.sum_comm

/-- The running sum after position n is the sum of what positions 0, …, n add. -/
theorem accTo_eq_sum_range (n : ℕ) :
    accTo pred target n = ∑ k ∈ Finset.range (n + 1), contrib pred target k := by
  induction n with
  | zero => simp [accTo]
  | succ n ih => rw [accTo, ih, Finset.sum_range_succ _ (n + 1)]

/-- Position i·16 + j of the walk adds tile (i, j): below the diagonal of tiles that tile is 0 anyway. -/
theorem contrib_block (i j : Fin 16) :
    contrib pred target (i.val * 16 + j.val) = tile pred target i j := by
  have hi := i.isLt
  have hj := j.isLt
  have hd : (i.val * 16 + j.val) / 16 = i.val := by omega
  have hm : (i.val * 16 + j.val) % 16 = j.val := by omega
  have hlt : i.val * 16 + j.val < 256 := by omega
  have e1 : (⟨(i.val * 16 + j.val) / 16, by omega⟩ : Fin 16) = i := Fin.ext hd
  have e2 : (⟨(i.val * 16 + j.val) % 16, by omega⟩ : Fin 16) = j := Fin.ext hm
  unfold contrib
  rw [dif_pos hlt]
  by_cases hle : i ≤ j
  · rw [if_pos (by rw [hd, hm]; exact hle), e1, e2]
  · rw [if_neg (by rw [hd, hm]; exact hle)]
    exact (tile_eq_zero_of_lt pred target i j (not_le.mp hle)).symm

/-- After the last of the 256 positions the running sum is the total. -/
theorem accTo_last : accTo pred target 255 = total pred target := by
  rw [accTo_eq_sum_range, total_eq_sum_tiles, Finset.sum_range (fun k => contrib pred target k)]
  have hb := BlockedSum.sum_eq_sum_blocks (M := EReal) 16 16 (fun n => contrib pred target n.val)
  refine hb.trans ?_
  exact Finset.sum_congr rfl fun i _ => Finset.sum_congr rfl fun j _ => contrib_block pred target i j

end Cert.Spec

end
-- ==== Proof.WalkValue.lean ====
/-
  The accumulator along the walk, and the result block at its end, as values on the extended reals.

  After position n of the row-by-row walk over the 16 × 16 tiles the accumulator's one entry is the running sum
  of the specification: at a point on or above the diagonal of tiles the body adds the tile's masked losses —
  with the four blocks it loaded read as stretches of the two argument arrays, exactly the specification's tile
  sum — and below the diagonal it adds nothing. At the last point the result block's one entry is that running
  sum times 1/K, and the running sum over all 256 positions is the total over all pairs.
-/
import proofs.«173667_j59803124630165_1_alg».proof.Proof.WalkPieces
import proofs.«173667_j59803124630165_1_alg».proof.Proof.TilePayload
import proofs.«173667_j59803124630165_1_alg».proof.Proof.BlockReads
import proofs.«173667_j59803124630165_1_alg».proof.Proof.TileAlgebra

set_option maxRecDepth 16384

noncomputable section

open scoped BigOperators

namespace Cert.KernelIdeal.Walk

open Cert.KernelIdeal Cert.KernelIdeal.Gen Cert.KernelIdeal.TileValue
open Idealize.ShloMosaic Idealize.ShloMosaic.TcCoe Idealize.ShloMosaic.ValueIdx
open Idealize.SL.Sem

/-- Grid point t is tile (t / 16, t % 16). -/
theorem coords_val : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- One step of the walk at tile (a, b), on blocks that are the stretches a and b of the two arrays: the block
    found, plus the specification's sum of tile (a, b). -/
theorem tileStep_tile (pred target : (⟨1, ![8192]⟩ : Shape).Idx → EReal) (i : grid0.Coords) (a b : Fin 16)
    (ha : (i 0).val = a.val) (hb : (i 1).val = b.val)
    (x0 : Vec Ideal S512x1 .f32) (x1 : Vec Ideal S1x512 .f32) (x2 : Vec Ideal S512x1 .f32) (x3 : Vec Ideal S1x512 .f32)
    (h0 : ∀ p : Fin 512, x0 (ix2 (n0 := 512) (n1 := 1) p 0) = pred (ix1 (Cert.Spec.at512 a p)))
    (h1 : ∀ q : Fin 512, x1 (ix2 (n0 := 1) (n1 := 512) 0 q) = pred (ix1 (Cert.Spec.at512 b q)))
    (h2 : ∀ p : Fin 512, x2 (ix2 (n0 := 512) (n1 := 1) p 0) = target (ix1 (Cert.Spec.at512 a p)))
    (h3 : ∀ q : Fin 512, x3 (ix2 (n0 := 1) (n1 := 512) 0 q) = target (ix1 (Cert.Spec.at512 b q)))
    (xs : Vec Ideal S1x1 .f32) (y : S1x1.Idx) :
    tileStep (F := Ideal) i x0 x1 x2 x3 xs y = xs y + Cert.Spec.tile pred target a b := by
  show k0_pay2 (F := Ideal) (k0_pay4 x2 x3 x0 x1) (k0_pay5 (BitVec.ofNat 32 (i 0).val) (BitVec.ofNat 32 (i 1).val))
      (Scalar.ofBits .f32 0x00000000#32) xs y = _
  rw [ha, hb]
  refine (pay2_at x0 x2 x1 x3 a b xs y).trans ?_
  refine congrArg (xs y + ·) (Finset.sum_congr rfl fun p _ => Finset.sum_congr rfl fun q _ => ?_)
  rw [h0 p, h1 q, h2 p, h3 q]
  rfl

variable (m : (ℓ : Loc nD τ sig) → Buf (Elt Ideal) ℓ) (c : Dev nD)

/-- The step at grid point t on the blocks the windows hold there: the block found plus what position t of the
    walk contributes, when the tile is on or above the diagonal. -/
theorem step_value (t : Fin cfg0.N) (h2 : onUpper (grid0.coords t)) (xs : Vec Ideal S1x1 .f32) (y : S1x1.Idx) :
    tileStep (F := Ideal) (grid0.coords t) (iblk m c 0 t) (iblk m c 1 t) (iblk m c 2 t) (iblk m c 3 t) xs y
      = xs y + Cert.Spec.contrib (m ((c : Thread nD τ).loc main_arg0)) (m ((c : Thread nD τ).loc main_arg1)) t.val := by
  have hlt : t.val < 256 := BlockReads.point_lt t
  have hup : t.val / 16 ≤ t.val % 16 := (onUpper_iff t).mp h2
  refine (tileStep_tile (m ((c : Thread nD τ).loc main_arg0)) (m ((c : Thread nD τ).loc main_arg1)) (grid0.coords t)
    ⟨t.val / 16, by omega⟩ ⟨t.val % 16, by omega⟩ (coords_val t).1 (coords_val t).2
    (iblk m c 0 t) (iblk m c 1 t) (iblk m c 2 t) (iblk m c 3 t)
    (fun p => BlockReads.predRow_at_of m c t p ⟨t.val / 16, by omega⟩ rfl)
    (fun q => BlockReads.predCol_at_of m c t q ⟨t.val % 16, by omega⟩ rfl)
    (fun p => BlockReads.targetRow_at_of m c t p ⟨t.val / 16, by omega⟩ rfl)
    (fun q => BlockReads.targetCol_at_of m c t q ⟨t.val % 16, by omega⟩ rfl) xs y).trans ?_
  unfold Cert.Spec.contrib
  rw [dif_pos hlt, if_pos hup]

/-- Below the diagonal of tiles a position of the walk contributes nothing. -/
theorem contrib_skip (pred target : (⟨1, ![8192]⟩ : Shape).Idx → EReal) (n : ℕ) (h : ¬ n / 16 ≤ n % 16) :
    Cert.Spec.contrib pred target n = 0 := by
  unfold Cert.Spec.contrib
  by_cases hlt : n < 256
  · rw [dif_pos hlt, if_neg h]
  · rw [dif_neg hlt]

/-- The accumulator after position n of the walk holds the specification's running sum. -/
theorem accAt_value : ∀ (n : ℕ) (hn : n < cfg0.N) (y : S1x1.Idx),
    accAt m c n hn y = Cert.Spec.accTo (m ((c : Thread nD τ).loc main_arg0)) (m ((c : Thread nD τ).loc main_arg1)) n
  | 0, hn, y => by
    have h1 : atFirst (grid0.coords ⟨0, hn⟩) := (atFirst_iff ⟨0, hn⟩).mpr rfl
    have h2 : onUpper (grid0.coords ⟨0, hn⟩) := (onUpper_iff ⟨0, hn⟩).mpr (by show (0 : ℕ) / 16 ≤ 0 % 16; decide)
    have h3 : ¬atLast (grid0.coords ⟨0, hn⟩) := fun h => absurd ((atLast_iff ⟨0, hn⟩).mp h) (by show ¬ ((0 : ℕ) = 255); decide)
    refine (congrFun (accAt_first m c ⟨0, hn⟩ h1 h2 h3) y).trans ?_
    refine (congrFun (accFirst_eq (F := Ideal) c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) accM (Memref.isWhole_whole _) h1 h2 h3 (iblk m c 0 ⟨0, hn⟩) (iblk m c 1 ⟨0, hn⟩) (iblk m c 2 ⟨0, hn⟩) (iblk m c 3 ⟨0, hn⟩)) y).trans ?_
    refine (step_value m c ⟨0, hn⟩ h2 (k0_pay1 (F := Ideal)) y).trans ?_
    rw [pay1_at]
    rfl
  | n + 1, hn, y => by
    have ih := accAt_value n (Nat.lt_of_succ_lt hn) y
    have h1 : ¬atFirst (grid0.coords ⟨n + 1, hn⟩) := fun h => Nat.succ_ne_zero n ((atFirst_iff ⟨n + 1, hn⟩).mp h)
    by_cases hup : (n + 1) / 16 ≤ (n + 1) % 16
    · have h2 : onUpper (grid0.coords ⟨n + 1, hn⟩) := (onUpper_iff ⟨n + 1, hn⟩).mpr hup
      by_cases hl : n + 1 = 255
      · have h3 : atLast (grid0.coords ⟨n + 1, hn⟩) := (atLast_iff ⟨n + 1, hn⟩).mpr hl
        refine (congrFun (accAt_last m c ⟨n + 1, hn⟩ h1 h2 h3) y).trans ?_
        refine (congrFun (accLast_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) h1 h2 h3 (iblk m c 0 ⟨n + 1, hn⟩) (iblk m c 1 ⟨n + 1, hn⟩) (iblk m c 2 ⟨n + 1, hn⟩) (iblk m c 3 ⟨n + 1, hn⟩)
          (accAt m c n (Nat.lt_of_succ_lt hn))) y).trans ?_
        refine (step_value m c ⟨n + 1, hn⟩ h2 (accAt m c n (Nat.lt_of_succ_lt hn)) y).trans ?_
        rw [ih]
        rfl
      · have h3 : ¬atLast (grid0.coords ⟨n + 1, hn⟩) := fun h => hl ((atLast_iff ⟨n + 1, hn⟩).mp h)
        refine (congrFun (accAt_add m c ⟨n + 1, hn⟩ h1 h2 h3) y).trans ?_
        refine (congrFun (accAdd_eq (F := Ideal) c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) accM (Memref.isWhole_whole _) h1 h2 h3 (iblk m c 0 ⟨n + 1, hn⟩) (iblk m c 1 ⟨n + 1, hn⟩) (iblk m c 2 ⟨n + 1, hn⟩) (iblk m c 3 ⟨n + 1, hn⟩)
          (accAt m c n (Nat.lt_of_succ_lt hn))) y).trans ?_
        refine (step_value m c ⟨n + 1, hn⟩ h2 (accAt m c n (Nat.lt_of_succ_lt hn)) y).trans ?_
        rw [ih]
        rfl
    · have h2 : ¬onUpper (grid0.coords ⟨n + 1, hn⟩) := fun h => hup ((onUpper_iff ⟨n + 1, hn⟩).mp h)
      refine (congrFun (accAt_skip m c ⟨n + 1, hn⟩ h1 h2) y).trans ?_
      refine ih.trans ?_
      show _ = Cert.Spec.accTo _ _ n + Cert.Spec.contrib _ _ (n + 1)
      rw [contrib_skip _ _ (n + 1) hup, add_zero]

/-- The result block after the last point holds the specification's loss. -/
theorem outAt_value (t : Fin cfg0.N) (h : t.val = 255) (y : S1x1.Idx) :
    outAt m c t y = Cert.Spec.result (m ((c : Thread nD τ).loc main_arg0)) (m ((c : Thread nD τ).loc main_arg1)) := by
  have h1 : ¬atFirst (grid0.coords t) := fun h' => by have := (atFirst_iff t).mp h'; omega
  have h2 : onUpper (grid0.coords t) := (onUpper_iff t).mpr (by omega)
  have h3 : atLast (grid0.coords t) := (atLast_iff t).mpr h
  have hprev : t.val - 1 < cfg0.N := Nat.lt_of_le_of_lt (Nat.sub_le _ _) t.isLt
  refine (congrFun (outAt_last m c t h1 h2 h3) y).trans ?_
  refine (congrFun (outLast_eq (F := Ideal) c (grid0.coords t) (ms0 t) (hs0 t) (ms1 t) (hs1 t) (ms2 t) (hs2 t) (ms3 t) (hs3 t) (ms4 t) (hs4 t) accM (Memref.isWhole_whole _) h1 h2 h3 (iblk m c 0 t) (iblk m c 1 t) (iblk m c 2 t) (iblk m c 3 t)
    (accAt m c (t.val - 1) hprev)) y).trans ?_
  refine (pay3_at _ y).trans ?_
  rw [step_value m c t h2 (accAt m c (t.val - 1) hprev) y, accAt_value m c (t.val - 1) hprev y]
  unfold Cert.Spec.result
  rw [← Cert.Spec.accTo_last, h]
  rfl

end Cert.KernelIdeal.Walk

end
-- ==== Proof.RefSide.lean ====
/-
  The reference program computes the specification's loss.

  The reference spreads the two argument arrays over the 8192 × 8192 pair matrix (row r holds item r, column c
  holds item c), computes each pair's hinge loss elementwise, keeps it where the row number is below the column
  number and puts 0 elsewhere, sums the whole matrix from 0, and divides by the number of pairs. Read at row r
  and column c the elementwise part is the specification's entry; the sum over the rank-2 index set is the double
  sum over rows and columns; the divisor word denotes the real 33550336, so the division is the product with
  its reciprocal.
-/
import proofs.«173667_j59803124630165_1_alg».proof.Proof.Gen.ReferenceIdeal.Read
import proofs.«173667_j59803124630165_1_alg».proof.Proof.Spec
import Idealize.ShloMosaic.Lib.ValueIdx
import Idealize.ShloMosaic.Lib.Affine
import Idealize.ShloMosaic.Lib.DynamicIndex
import Idealize.ShloMosaic.PureOps.Ideal.Laws

noncomputable section

open scoped BigOperators

namespace Cert.ReferenceIdeal.RefSide

open Idealize.ShloMosaic Idealize.ShloMosaic.ValueIdx Cert.ReferenceIdeal Cert.ReferenceIdeal.Read

/-! ### The mask: row number below column number -/

/-- Two item numbers below 8192, written as 32-bit words and compared signed, compare as the numbers do: the
    select on that comparison's bit is the `if`. -/
theorem select_lt {α : Type} (r c : Fin 8192) (a b : α) :
    Scalar.select (IntOp.cmpi .slt (BitVec.ofNat 32 r.val) (BitVec.ofNat 32 c.val)) a b
      = if r < c then a else b := by
  have hr : (BitVec.ofNat 32 r.val).toInt = (r.val : Int) := toInt_ofNat_of_lt (by have := r.isLt; omega)
  have hc : (BitVec.ofNat 32 c.val).toInt = (c.val : Int) := toInt_ofNat_of_lt (by have := c.isLt; omega)
  by_cases h : r < c
  · have h1 : IntOp.cmpi .slt (BitVec.ofNat 32 r.val) (BitVec.ofNat 32 c.val) = 1#1 :=
      IntOp.cmpi_slt.mpr (by rw [hr, hc]; exact_mod_cast h)
    rw [h1, select_one, if_pos h]
  · have h0 : IntOp.cmpi .slt (BitVec.ofNat 32 r.val) (BitVec.ofNat 32 c.val) = 0#1 :=
      eq_zero_of_ne_one fun h1 => h (by
        have h2 := IntOp.cmpi_slt.mp h1
        rw [hr, hc] at h2
        exact_mod_cast h2)
    rw [h0, select_zero, if_neg h]

/-- The row-number matrix at (r, c) is the word of r. -/
theorem rowNumber_at (r c : Fin 8192) :
    val_main_v26 (F := Ideal) (ix2 r c) = BitVec.ofNat 32 r.val := by
  rw [val_main_v26_apply, val_main_v24_apply, val_main_v23_apply]

/-- The column-number matrix at (r, c) is the word of c. -/
theorem colNumber_at (r c : Fin 8192) :
    val_main_v27 (F := Ideal) (ix2 r c) = BitVec.ofNat 32 c.val := by
  rw [val_main_v27_apply, val_main_v25_apply, val_main_v23_apply]

/-! ### The spread arrays at (r, c) -/

/-- The targets spread along rows, at (r, c), is target r. -/
theorem targetRow_at (x1 : (⟨S8192, .f32⟩ : BufTy).Contents (Elt Ideal)) (r c : Fin 8192) :
    val_main_v2 (F := Ideal) x1 (ix2 r c) = x1 (ix1 r) := by
  rw [val_main_v2_apply, val_main_v0_apply]
  exact congrArg x1 (funext fun a => match a with | ⟨0, _⟩ => rfl)

/-- The targets spread along columns, at (r, c), is target c. -/
theorem targetCol_at (x1 : (⟨S8192, .f32⟩ : BufTy).Contents (Elt Ideal)) (r c : Fin 8192) :
    val_main_v3 (F := Ideal) x1 (ix2 r c) = x1 (ix1 c) := by
  rw [val_main_v3_apply, val_main_v1_apply]
  exact congrArg x1 (funext fun a => match a with | ⟨0, _⟩ => rfl)

/-- The predictions spread along rows, at (r, c), is prediction r. -/
theorem predRow_at (x0 : (⟨S8192, .f32⟩ : BufTy).Contents (Elt Ideal)) (r c : Fin 8192) :
    val_main_v15 (F := Ideal) x0 (ix2 r c) = x0 (ix1 r) := by
  rw [val_main_v15_apply, val_main_v13_apply]
  exact congrArg x0 (funext fun a => match a with | ⟨0, _⟩ => rfl)

/-- The predictions spread along columns, at (r, c), is prediction c. -/
theorem predCol_at (x0 : (⟨S8192, .f32⟩ : BufTy).Contents (Elt Ideal)) (r c : Fin 8192) :
    val_main_v16 (F := Ideal) x0 (ix2 r c) = x0 (ix1 c) := by
  rw [val_main_v16_apply, val_main_v14_apply]
  exact congrArg x0 (funext fun a => match a with | ⟨0, _⟩ => rfl)

/-! ### One pair's loss, and the masked entry -/

/-- The elementwise hinge loss at (r, c) is the specification's loss of the pair (r, c). -/
theorem loss_at (x0 x1 : (⟨S8192, .f32⟩ : BufTy).Contents (Elt Ideal)) (r c : Fin 8192) :
    val_main_v22 (F := Ideal) x0 x1 (ix2 r c)
      = Cert.Spec.pairLoss (x0 (ix1 r)) (x0 (ix1 c)) (x1 (ix1 r)) (x1 (ix1 c)) := by
  rw [val_main_v22_apply, val_main_v21_apply, val_main_cst_2_apply, val_main_v20_apply, val_main_v12_apply,
    val_main_v11_apply, val_main_v10_apply, val_main_cst_1_apply, val_main_v9_apply, val_main_v8_apply,
    val_main_cst_0_apply, val_main_v7_apply, val_main_v6_apply, val_main_cst_apply, val_main_v5_apply,
    val_main_v19_apply, val_main_v17_apply, val_main_v18_apply, val_main_v4_apply,
    targetRow_at, targetCol_at, predRow_at, predCol_at]
  simp only [Ideal.ofBits_def, Ideal.addf_def, Ideal.subf_def, Ideal.mulf_def, Ideal.hostDivf_def,
    Ideal.maximumf_def, Ideal.hostAbsf_def, Ideal.absf_def, Ideal.hostUnary_sign_def, Ideal.ofBits_zero_f32,
    Cert.Spec.pairLoss, Cert.Spec.margin, Cert.Spec.mag, Cert.Spec.cGamma, Cert.Spec.cOne, Cert.Spec.cBeta]

/-- The filler of the masked-out places is 0. -/
theorem filler_at (r c : Fin 8192) : val_main_call0_v1 (F := Ideal) (ix2 r c) = 0 := by
  rw [val_main_call0_v1_apply, val_main_call0_v0_apply, val_main_cst_3_apply, Ideal.ofBits_def,
    Ideal.ofBits_zero_f32]

/-- The masked matrix at (r, c) is the specification's entry. -/
theorem entry_at (x0 x1 : (⟨S8192, .f32⟩ : BufTy).Contents (Elt Ideal)) (r c : Fin 8192) :
    val_main_v29 (F := Ideal) x0 x1 (ix2 r c) = Cert.Spec.entry x0 x1 r c := by
  rw [val_main_v29_apply, val_main_v28_apply, rowNumber_at, colNumber_at, select_lt, loss_at, filler_at]
  rfl

/-! ### The divisor, and the assembly -/

/-- The divisor word denotes the real 33550336 = 2²⁴ · (1 + 8386560 / 2²³). -/
theorem divisor_word : Ideal.ofBits .f32 0x4BFFF800#32 = ((33550336 : ℝ) : EReal) := by
  simp [Ideal.ofBits, Ideal.ieee, -EReal.coe_mul]; norm_num

/-- The reference's result is the specification's loss. -/
theorem ref_result (x0 x1 : (⟨S8192, .f32⟩ : BufTy).Contents (Elt Ideal)) :
    Cert.ReferenceIdeal.Read.val_main_v31 (F := Ideal) x0 x1 = fun _ => Cert.Spec.result x0 x1 := by
  funext i
  rw [val_main_v31_apply, val_main_v30_apply, val_main_cst_4_apply, val_main_cst_5_apply,
    sum_idx2 (fun j => val_main_v29 (F := Ideal) x0 x1 j)]
  simp only [entry_at]
  rw [Ideal.hostDivf_def, Ideal.ofBits_def, Ideal.ofBits_def, Ideal.ofBits_zero_f32, divisor_word,
    Ideal.div_coe (by norm_num), zero_add]
  rfl

end Cert.ReferenceIdeal.RefSide

end
-- ==== Proof.Preserves.lean ====
/-
  The ledger of the sanctioned idealization: each rewrite that the ideal pass made is restated as its rule's
  `Statement` at the site, and each is an instance of the library's proof of that rule.
    1. the sign-bit window over a 512x512 block of f32: "1.0 carrying x's sign bit" is, at the ideal reading,
       `-1` where `x < 0` and `1` elsewhere;
    2. the named constant "inv_K": the certificate's table gives it the value 1 / 33550336, and at the ideal
       reading the printed constant is that value.
-/
import proofs.«173667_j59803124630165_1_alg».proof.Defs
import Idealize.ShloMosaic.PureOps.IdealRules

noncomputable section

open Idealize.ShloMosaic

namespace Cert.Proof.PreservesLeg

/-- Both entries of the ledger: the rule's statement at the site's shape and format, and the table's entry. -/
theorem preserves : Cert.preserves_Kernel_KernelIdeal :=
  ⟨IdealRules.sign_bit.statement Cert.KernelIdeal.S512x512 .f32,
   IdealRules.named_const.statement Cert.KernelIdeal.κ "inv_K" .f32 0x33000400#32 ((1 / 33550336 : ℝ) : EReal) rfl⟩

end Cert.Proof.PreservesLeg

end
-- ==== Proof.lean ====
/-
  A pairwise ranking loss over 8192 items, computed tile by tile, equals the same loss computed in one sum.

  For predictions p and targets t the loss is (1/K) · Σ_{r < c} max 0 ( (β / (1 + γ·|t r − t c|)) · |t r − t c|
  − (p r − p c) · sign (t r − t c) ), with K = 8192·8191/2 = 33550336 the number of pairs. The reference forms the
  whole 8192 × 8192 matrix of pair losses, masks it to r < c, sums it and divides by K. The kernel walks the
  16 × 16 grid of 512 × 512 tiles row by row, keeps a one-element accumulator, clears it at the first tile, adds
  the masked sum of each tile on or above the diagonal of tiles (a tile strictly below the diagonal holds only
  pairs with r > c, which the mask removes, so skipping it changes nothing), and at the last tile stores the
  accumulator times 1/K. On the extended reals a finite sum may be cut into blocks and re-ordered freely (addition
  is commutative and associative there and 0 is neutral; no cancellation or distributivity is used, so no
  finiteness is needed), the kernel's lowering of sign — 1 with the argument's sign where the argument is not
  zero, the argument itself where it is — is the sign function, and dividing by the real number K is multiplying
  by 1/K. So both programs return `Cert.Spec.result` of the two argument arrays.

  The modules: Spec (the loss as one function, its tiles and the running sum over the walk); TileAlgebra with
  LibBlockedSum (the sum over all pairs is the sum of the tiles; the running sum ends at the total); RefSide (the
  reference's result is the specification); TileLoss, TileMask, TileSum, TileConst, TilePayload (one tile's step
  of the kernel, read at an index); BlockReads (each input block is a stretch of its argument array); IdealCases,
  IdealRun*, IdealFrame (the idealized program runs, point by point, with the accumulator's contents named) and
  WordCases, WordRun*, WordFrame (the same for the word-level program); WalkPieces, WalkValue (the accumulator
  after each point is the running sum); IdealResult (the returned scalar); Preserves (the two rewrites of the
  idealization).
-/
import proofs.«173667_j59803124630165_1_alg».proof.Defs
import proofs.«173667_j59803124630165_1_alg».proof.Proof.Gen.Kernel
import proofs.«173667_j59803124630165_1_alg».proof.Proof.Gen.KernelIdeal
import proofs.«173667_j59803124630165_1_alg».proof.Proof.Gen.ReferenceIdeal
import proofs.«173667_j59803124630165_1_alg».proof.Proof.Gen.ReferenceIdeal.Run
import proofs.«173667_j59803124630165_1_alg».proof.Proof.Gen.ReferenceIdeal.Read
import proofs.«173667_j59803124630165_1_alg».proof.Proof.Gen.Pre_finite_inputs
import proofs.«173667_j59803124630165_1_alg».proof.Proof.WordFrame
import proofs.«173667_j59803124630165_1_alg».proof.Proof.IdealResult
import proofs.«173667_j59803124630165_1_alg».proof.Proof.WalkValue
import proofs.«173667_j59803124630165_1_alg».proof.Proof.RefSide
import proofs.«173667_j59803124630165_1_alg».proof.Proof.Preserves
import Idealize.ShloMosaic.Adequacy
import Idealize.ShloMosaic.Init

noncomputable section

namespace Cert.Proof

open Idealize.ShloMosaic Idealize.ShloMosaic.TcCoe Idealize.SL.Sem

/-- The word-level program runs to the end, faults nowhere and leaves its two argument arrays as they were. -/
theorem frame_word : Cert.frame_Kernel := fun m ρ _ => Cert.Kernel.Walk.frame m ρ
/-- So does its idealization. -/
theorem frame_ideal : Cert.frame_KernelIdeal := fun m ρ _ => Cert.KernelIdeal.Walk.frame m ρ
/-- The reference has no kernel: its frame is its run with the result forgotten. -/
theorem frame_ref : Cert.frame_ReferenceIdeal := fun m ρ _ =>
  (θ_run Cert.ReferenceIdeal.defs _ _).mono (fun _ h c => (h c).2) (Cert.ReferenceIdeal.Value.run (F := Ideal) m ρ)

/-- On the extended reals both programs return the pairwise ranking loss `Cert.Spec.result` of the two argument
    arrays: the kernel by walking the 16 × 16 tiles and scaling the accumulated total by the named 1/K, the
    reference by one sum over all pairs divided by K. -/
theorem algebraic : Cert.algebraic_KernelIdeal_ReferenceIdeal := by
  intro m ρ m' ρ' _ hagree
  refine ⟨fun c => fun _ => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Walk.run_value m ρ _ (fun c t h y => Cert.KernelIdeal.Walk.outAt_value m c t h y), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq, Cert.ReferenceIdeal.RefSide.ref_result, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_word, frame_ideal, frame_ref, Cert.Proof.PreservesLeg.preserves, algebraic⟩

end Cert.Proof

end
